-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x200 : Shape := ⟨2, ![30000, 200]⟩
abbrev S10000x200 : Shape := ⟨2, ![10000, 200]⟩
abbrev S230x200 : Shape := ⟨2, ![230, 200]⟩
abbrev S365x1 : Shape := ⟨2, ![365, 1]⟩
abbrev S10x200 : Shape := ⟨2, ![10, 200]⟩
abbrev S200x401 : Shape := ⟨2, ![200, 401]⟩
abbrev S200 : Shape := ⟨1, ![200]⟩
abbrev S40000x1 : Shape := ⟨2, ![40000, 1]⟩
abbrev S600000 : Shape := ⟨1, ![600000]⟩
abbrev S4096x4 : Shape := ⟨2, ![4096, 4]⟩
abbrev S_ : Shape := ⟨0, ![]⟩

class Facts : Prop where
  bcast_S_S30000x200 : S_.BroadcastsInDim S30000x200 (![] : Fin 0 → Fin S30000x200.rank)
  reducesTo_S30000x200_S_d0_1 : S30000x200.ReducesTo [0, 1] S_
  h_S_ : 0 < S_.numel
  bcast_S_S10000x200 : S_.BroadcastsInDim S10000x200 (![] : Fin 0 → Fin S10000x200.rank)
  reducesTo_S10000x200_S_d0_1 : S10000x200.ReducesTo [0, 1] S_
  bcast_S_S230x200 : S_.BroadcastsInDim S230x200 (![] : Fin 0 → Fin S230x200.rank)
  reducesTo_S230x200_S_d0_1 : S230x200.ReducesTo [0, 1] S_
  bcast_S_S365x1 : S_.BroadcastsInDim S365x1 (![] : Fin 0 → Fin S365x1.rank)
  reducesTo_S365x1_S_d0_1 : S365x1.ReducesTo [0, 1] S_
  bcast_S_S10x200 : S_.BroadcastsInDim S10x200 (![] : Fin 0 → Fin S10x200.rank)
  reducesTo_S10x200_S_d0_1 : S10x200.ReducesTo [0, 1] S_
  bcast_S_S200x401 : S_.BroadcastsInDim S200x401 (![] : Fin 0 → Fin S200x401.rank)
  reducesTo_S200x401_S_d0_1 : S200x401.ReducesTo [0, 1] S_
  bcast_S_S200 : S_.BroadcastsInDim S200 (![] : Fin 0 → Fin S200.rank)
  reducesTo_S200_S_d0 : S200.ReducesTo [0] S_
  bcast_S_S40000x1 : S_.BroadcastsInDim S40000x1 (![] : Fin 0 → Fin S40000x1.rank)
  reducesTo_S40000x1_S_d0_1 : S40000x1.ReducesTo [0, 1] S_

variable [Facts]

def fn_part2 {F : FTy → Type} [FloatOps F] (main_arg7 : FVec F S40000x1 .f32) (main_v33 : IVec S_ 1) : IVec S_ 1 :=
  let main_v34 : FVec F S40000x1 .f32 := Host.absf main_arg7
  let main_cst_12 : FVec F S_ .f32 := constant S_ .f32 0x7F800000#32
  let main_v35 : FVec F S40000x1 .f32 := broadcastInDim S40000x1 ![] bcast_S_S40000x1 main_cst_12
  let main_v36 : IVec S40000x1 1 := cmpf .olt main_v34 main_v35
  let main_c_13 : IVec S_ 1 := constantI S_ 1 1#1
  let main_v37 : IVec S_ 1 := (fun x v => Host.reduce IntOp.andi x v reducesTo_S40000x1_S_d0_1 h_S_) main_v36 main_c_13
  let main_v38 : IVec S_ 1 := andi main_v33 main_v37
  main_v38

def fn_part1 {F : FTy → Type} [FloatOps F] (main_arg4 : FVec F S10x200 .f32) (main_arg5 : FVec F S200x401 .f32) (main_arg6 : FVec F S200 .f32) (main_arg7 : FVec F S40000x1 .f32) (main_v13 : IVec S_ 1) (main_v16 : IVec S365x1 1) : IVec S_ 1 :=
  let main_c_5 : IVec S_ 1 := constantI S_ 1 1#1
  let main_v17 : IVec S_ 1 := (fun x v => Host.reduce IntOp.andi x v reducesTo_S365x1_S_d0_1 h_S_) main_v16 main_c_5
  let main_v18 : IVec S_ 1 := andi main_v13 main_v17
  let main_v19 : FVec F S10x200 .f32 := Host.absf main_arg4
  let main_cst_6 : FVec F S_ .f32 := constant S_ .f32 0x7F800000#32
  let main_v20 : FVec F S10x200 .f32 := broadcastInDim S10x200 ![] bcast_S_S10x200 main_cst_6
  let main_v21 : IVec S10x200 1 := cmpf .olt main_v19 main_v20
  let main_c_7 : IVec S_ 1 := constantI S_ 1 1#1
  let main_v22 : IVec S_ 1 := (fun x v => Host.reduce IntOp.andi x v reducesTo_S10x200_S_d0_1 h_S_) main_v21 main_c_7
  let main_v23 : IVec S_ 1 := andi main_v18 main_v22
  let main_v24 : FVec F S200x401 .f32 := Host.absf main_arg5
  let main_cst_8 : FVec F S_ .f32 := constant S_ .f32 0x7F800000#32
  let main_v25 : FVec F S200x401 .f32 := broadcastInDim S200x401 ![] bcast_S_S200x401 main_cst_8
  let main_v26 : IVec S200x401 1 := cmpf .olt main_v24 main_v25
  let main_c_9 : IVec S_ 1 := constantI S_ 1 1#1
  let main_v27 : IVec S_ 1 := (fun x v => Host.reduce IntOp.andi x v reducesTo_S200x401_S_d0_1 h_S_) main_v26 main_c_9
  let main_v28 : IVec S_ 1 := andi main_v23 main_v27
  let main_v29 : FVec F S200 .f32 := Host.absf main_arg6
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg7 main_v33

def fn {F : FTy → Type} [FloatOps F] (main_arg0 : FVec F S30000x200 .f32) (main_arg1 : FVec F S10000x200 .f32) (main_arg2 : FVec F S230x200 .f32) (main_arg3 : FVec F S365x1 .f32) (main_arg4 : FVec F S10x200 .f32) (main_arg5 : FVec F S200x401 .f32) (main_arg6 : FVec F S200 .f32) (main_arg7 : FVec F S40000x1 .f32) (main_arg8 : IVec S600000 32) (main_arg9 : IVec S600000 32) (main_arg10 : IVec S600000 32) (main_arg11 : IVec S4096x4 32) : IVec S_ 1 :=
  let main_v0 : FVec F S30000x200 .f32 := Host.absf main_arg0
  let main_cst : FVec F S_ .f32 := constant S_ .f32 0x7F800000#32
  let main_v1 : FVec F S30000x200 .f32 := broadcastInDim S30000x200 ![] bcast_S_S30000x200 main_cst
  let main_v2 : IVec S30000x200 1 := cmpf .olt main_v0 main_v1
  let main_c : IVec S_ 1 := constantI S_ 1 1#1
  let main_v3 : IVec S_ 1 := (fun x v => Host.reduce IntOp.andi x v reducesTo_S30000x200_S_d0_1 h_S_) main_v2 main_c
  let main_v4 : FVec F S10000x200 .f32 := Host.absf main_arg1
  let main_cst_0 : FVec F S_ .f32 := constant S_ .f32 0x7F800000#32
  let main_v5 : FVec F S10000x200 .f32 := broadcastInDim S10000x200 ![] bcast_S_S10000x200 main_cst_0
  let main_v6 : IVec S10000x200 1 := cmpf .olt main_v4 main_v5
  let main_c_1 : IVec S_ 1 := constantI S_ 1 1#1
  let main_v7 : IVec S_ 1 := (fun x v => Host.reduce IntOp.andi x v reducesTo_S10000x200_S_d0_1 h_S_) main_v6 main_c_1
  let main_v8 : IVec S_ 1 := andi main_v3 main_v7
  let main_v9 : FVec F S230x200 .f32 := Host.absf main_arg2
  let main_cst_2 : FVec F S_ .f32 := constant S_ .f32 0x7F800000#32
  let main_v10 : FVec F S230x200 .f32 := broadcastInDim S230x200 ![] bcast_S_S230x200 main_cst_2
  let main_v11 : IVec S230x200 1 := cmpf .olt main_v9 main_v10
  let main_c_3 : IVec S_ 1 := constantI S_ 1 1#1
  let main_v12 : IVec S_ 1 := (fun x v => Host.reduce IntOp.andi x v reducesTo_S230x200_S_d0_1 h_S_) main_v11 main_c_3
  let main_v13 : IVec S_ 1 := andi main_v8 main_v12
  let main_v14 : FVec F S365x1 .f32 := Host.absf main_arg3
  let main_cst_4 : FVec F S_ .f32 := constant S_ .f32 0x7F800000#32
  let main_v15 : FVec F S365x1 .f32 := broadcastInDim S365x1 ![] bcast_S_S365x1 main_cst_4
  let main_v16 : IVec S365x1 1 := cmpf .olt main_v14 main_v15
  fn_part1 (F := F) main_arg4 main_arg5 main_arg6 main_arg7 main_v13 main_v16
-- ==== Kernel.lean ====
abbrev S30000x200 : Shape := ⟨2, ![30000, 200]⟩
abbrev S10000x200 : Shape := ⟨2, ![10000, 200]⟩
abbrev S230x200 : Shape := ⟨2, ![230, 200]⟩
abbrev S365x1 : Shape := ⟨2, ![365, 1]⟩
abbrev S10x200 : Shape := ⟨2, ![10, 200]⟩
abbrev S200x401 : Shape := ⟨2, ![200, 401]⟩
abbrev S200 : Shape := ⟨1, ![200]⟩
abbrev S40000x1 : Shape := ⟨2, ![40000, 1]⟩
abbrev S600000 : Shape := ⟨1, ![600000]⟩
abbrev S4096x4 : Shape := ⟨2, ![4096, 4]⟩
abbrev S40000x200 : Shape := ⟨2, ![40000, 200]⟩
abbrev S_ : Shape := ⟨0, ![]⟩
abbrev S600000x1 : Shape := ⟨2, ![600000, 1]⟩
abbrev S600000x200 : Shape := ⟨2, ![600000, 200]⟩
abbrev S4096x1 : Shape := ⟨2, ![4096, 1]⟩
abbrev S4096 : Shape := ⟨1, ![4096]⟩
abbrev S4096x200 : Shape := ⟨2, ![4096, 200]⟩
abbrev S200x200 : Shape := ⟨2, ![200, 200]⟩
abbrev S200x1 : Shape := ⟨2, ![200, 1]⟩
abbrev S1x200 : Shape := ⟨2, ![1, 200]⟩
abbrev S30720x200 : Shape := ⟨2, ![30720, 200]⟩
abbrev S4096x30000 : Shape := ⟨2, ![4096, 30000]⟩
abbrev S1024x200 : Shape := ⟨2, ![1024, 200]⟩
abbrev S1024x1 : Shape := ⟨2, ![1024, 1]⟩
abbrev S1920x200 : Shape := ⟨2, ![1920, 200]⟩
abbrev S1024x1920 : Shape := ⟨2, ![1024, 1920]⟩

abbrev nBuf : Space → Nat
  | .hbm => 112
  | .vmem => 15
  | .smem => 0
  | _ => 0

abbrev bufTy : (tb : Table) → Fin (tcTables nBuf tb) → BufTy
  | .hbm, ⟨0, _⟩ => ⟨S30000x200, .f32⟩
  | .hbm, ⟨1, _⟩ => ⟨S10000x200, .f32⟩
  | .hbm, ⟨2, _⟩ => ⟨S230x200, .f32⟩
  | .hbm, ⟨3, _⟩ => ⟨S365x1, .f32⟩
  | .hbm, ⟨4, _⟩ => ⟨S10x200, .f32⟩
  | .hbm, ⟨5, _⟩ => ⟨S200x401, .f32⟩
  | .hbm, ⟨6, _⟩ => ⟨S200, .f32⟩
  | .hbm, ⟨7, _⟩ => ⟨S40000x1, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S4096x4, .i32⟩
  | .hbm, ⟨12, _⟩ => ⟨S40000x200, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x200, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x200, .f32⟩
  | .hbm, ⟨31, _⟩ => ⟨S600000x200, .f32⟩
  | .hbm, ⟨32, _⟩ => ⟨S_, .f32⟩
  | .hbm, ⟨33, _⟩ => ⟨S40000x200, .f32⟩
  | .hbm, ⟨34, _⟩ => ⟨S600000x1, .i32⟩
  | .hbm, ⟨35, _⟩ => ⟨S40000x200, .f32⟩
  | .hbm, ⟨36, _⟩ => ⟨S40000x200, .f32⟩
  | .hbm, ⟨37, _⟩ => ⟨S40000x200, .f32⟩
  | .hbm, ⟨38, _⟩ => ⟨S_, .f32⟩
  | .hbm, ⟨39, _⟩ => ⟨S40000x200, .f32⟩
  | .hbm, ⟨40, _⟩ => ⟨S40000x200, .i1⟩
  | .hbm, ⟨41, _⟩ => ⟨S_, .f32⟩
  | .hbm, ⟨42, _⟩ => ⟨S40000x200, .f32⟩
  | .hbm, ⟨43, _⟩ => ⟨S40000x200, .f32⟩
  | .hbm, ⟨44, _⟩ => ⟨S40000x200, .f32⟩
  | .hbm, ⟨45, _⟩ => ⟨S30000x200, .f32⟩
  | .hbm, ⟨46, _⟩ => ⟨S4096x1, .i32⟩
  | .hbm, ⟨47, _⟩ => ⟨S4096, .i32⟩
  | .hbm, ⟨48, _⟩ => ⟨S4096x1, .i32⟩
  | .hbm, ⟨49, _⟩ => ⟨S4096, .i32⟩
  | .hbm, ⟨50, _⟩ => ⟨S4096x1, .i32⟩
  | .hbm, ⟨51, _⟩ => ⟨S4096, .i32⟩
  | .hbm, ⟨52, _⟩ => ⟨S_, .i32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S4096x1, .i32⟩
  | .hbm, ⟨78, _⟩ => ⟨S4096x200, .f32⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S4096x200, .f32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x1, .f32⟩
  | .hbm, ⟨97, _⟩ => ⟨S200x200, .f32⟩
  | .hbm, ⟨98, _⟩ => ⟨S200x200, .f32⟩
  | .hbm, ⟨99, _⟩ => ⟨S200x200, .bf16⟩
  | .hbm, ⟨100, _⟩ => ⟨S200x200, .f32⟩
  | .hbm, ⟨101, _⟩ => ⟨S200x200, .f32⟩
  | .hbm, ⟨102, _⟩ => ⟨S200x200, .bf16⟩
  | .hbm, ⟨103, _⟩ => ⟨S200x1, .f32⟩
  | .hbm, ⟨104, _⟩ => ⟨S1x200, .f32⟩
  | .hbm, ⟨105, _⟩ => ⟨S1x200, .bf16⟩
  | .hbm, ⟨106, _⟩ => ⟨S1x200, .f32⟩
  | .hbm, ⟨107, _⟩ => ⟨S30000x200, .bf16⟩
  | .hbm, ⟨108, _⟩ => ⟨S_, .i32⟩
  | .hbm, ⟨109, _⟩ => ⟨S_, .bf16⟩
  | .hbm, ⟨110, _⟩ => ⟨S30720x200, .bf16⟩
  | .hbm, ⟨111, _⟩ => ⟨S4096x30000, .f32⟩
  | .local _ .vmem, ⟨0, _⟩ => ⟨S1024x200, .f32⟩
  | .local _ .vmem, ⟨1, _⟩ => ⟨S1024x200, .f32⟩
  | .local _ .vmem, ⟨2, _⟩ => ⟨S1024x200, .f32⟩
  | .local _ .vmem, ⟨3, _⟩ => ⟨S1024x200, .f32⟩
  | .local _ .vmem, ⟨4, _⟩ => ⟨S1024x1, .f32⟩
  | .local _ .vmem, ⟨5, _⟩ => ⟨S1024x1, .f32⟩
  | .local _ .vmem, ⟨6, _⟩ => ⟨S200x200, .bf16⟩
  | .local _ .vmem, ⟨7, _⟩ => ⟨S200x200, .bf16⟩
  | .local _ .vmem, ⟨8, _⟩ => ⟨S1x200, .bf16⟩
  | .local _ .vmem, ⟨9, _⟩ => ⟨S1x200, .f32⟩
  | .local _ .vmem, ⟨10, _⟩ => ⟨S1920x200, .bf16⟩
  | .local _ .vmem, ⟨11, _⟩ => ⟨S1920x200, .bf16⟩
  | .local _ .vmem, ⟨12, _⟩ => ⟨S1024x1920, .f32⟩
  | .local _ .vmem, ⟨13, _⟩ => ⟨S1024x1920, .f32⟩
  | .local _ .vmem, ⟨14, _⟩ => ⟨S1024x200, .f32⟩
  | _, _ => ⟨S30000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v33 : Ref sig .tc := ⟨.hbm, 69, rfl⟩
abbrev main_c_6 : Ref sig .tc := ⟨.hbm, 70, rfl⟩
abbrev main_v34 : Ref sig .tc := ⟨.hbm, 71, rfl⟩
abbrev main_v35 : Ref sig .tc := ⟨.hbm, 72, rfl⟩
abbrev main_c_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_8 : Ref sig .tc := ⟨.hbm, 79, rfl⟩
abbrev main_v41 : Ref sig .tc := ⟨.hbm, 80, rfl⟩
abbrev main_v42 : Ref sig .tc := ⟨.hbm, 81, rfl⟩
abbrev main_c_9 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_10 : Ref sig .tc := ⟨.hbm, 88, rfl⟩
abbrev main_v48 : Ref sig .tc := ⟨.hbm, 89, rfl⟩
abbrev main_v49 : Ref sig .tc := ⟨.hbm, 90, rfl⟩
abbrev main_c_11 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_12 : Ref sig .tc := ⟨.hbm, 108, rfl⟩
abbrev main_call2_v0 : Ref sig .tc := ⟨.hbm, 109, rfl⟩
abbrev main_v66 : Ref sig .tc := ⟨.hbm, 110, rfl⟩
abbrev main_v67 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S200x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S200x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1920x200 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1920 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  concatenates_S30000x200_S10000x200_S40000x200_d0 : Shape.Concatenates [S30000x200, S10000x200] S40000x200 0
  bcast_S_S600000 : S_.BroadcastsInDim S600000 (![] : Fin 0 → Fin S600000.rank)
  bcast_S600000_S600000x1_0 : S600000.BroadcastsInDim S600000x1 (![0] : Fin 1 → Fin S600000x1.rank)
  bcast_S_S40000x200 : S_.BroadcastsInDim S40000x200 (![] : Fin 0 → Fin S40000x200.rank)
  bcast_S40000x1_S40000x200_0_1 : S40000x1.BroadcastsInDim S40000x200 (![0, 1] : Fin 2 → Fin S40000x200.rank)
  slices_S40000x200_S30000x200_0_0 : S40000x200.Slices ![0, 0] S30000x200
  slices_S4096x4_S4096x1_0_0 : S4096x4.Slices ![0, 0] S4096x1
  shapeCasts_S4096x1_S4096 : S4096x1.ShapeCasts S4096
  slices_S4096x4_S4096x1_0_1 : S4096x4.Slices ![0, 1] S4096x1
  slices_S4096x4_S4096x1_0_3 : S4096x4.Slices ![0, 3] S4096x1
  bcast_S_S4096 : S_.BroadcastsInDim S4096 (![] : Fin 0 → Fin S4096.rank)
  bcast_S4096_S4096x1_0 : S4096.BroadcastsInDim S4096x1 (![0] : Fin 1 → Fin S4096x1.rank)
  slices_S200x401_S200x200_0_0 : S200x401.Slices ![0, 0] S200x200
  transposes_S200x200_S200x200_1_0 : S200x200.Transposes [1, 0] S200x200
  bitsLt_bf16_f32 : FTy.bits .bf16 < FTy.bits .f32
  slices_S200x401_S200x200_0_200 : S200x401.Slices ![0, 200] S200x200
  slices_S200x401_S200x1_0_400 : S200x401.Slices ![0, 400] S200x1
  transposes_S200x1_S1x200_1_0 : S200x1.Transposes [1, 0] S1x200
  shapeCasts_S200_S1x200 : S200.ShapeCasts S1x200
  pads_S30000x200_S30720x200_07200_000 : S30000x200.Pads (![0, 0] : Fin 2 → Nat) ![720, 0] ![0, 0] S30720x200
  h_S_ : 0 < S_.numel
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1024x1_S1024x200 : S1024x1.Broadcasts S1024x200
  broadcasts_S1x200_S1024x200 : S1x200.Broadcasts S1024x200
  inb_S1920x200_S1920x200_0_0 : ∀ a, (![0, 0] : Fin 2 → Nat) a + S1920x200.size a ≤ S1920x200.size a
  h_S1920x200 : 0 < S1920x200.numel
  shapeCasts_S1920x200_S1920x200 : S1920x200.ShapeCasts S1920x200
  inb_S1024x1920_S1024x1920_0_0 : ∀ a, (![0, 0] : Fin 2 → Nat) a + S1024x1920.size a ≤ S1024x1920.size a
  h_S1024x1920 : 0 < S1024x1920.numel
  gather_S40000x200_S600000x1_S600000x200_1_0_n_n_0_1_1200_wf : GatherDims.WF S40000x200 S600000x1 S600000x200 [1] [0] [] [0] [] 1 ![1, 200]
  gather_S10x200_S600000x1_S600000x200_1_0_n_n_0_1_1200_wf : GatherDims.WF S10x200 S600000x1 S600000x200 [1] [0] [] [0] [] 1 ![1, 200]
  scatter_S40000x200_S600000x1_S600000x200_1_0_0_1_wf : ScatterDims.WF S40000x200 S600000x1 S600000x200 [1] [0] [0] 1
  gather_S30000x200_S4096x1_S4096x200_1_0_n_n_0_1_1200_wf : GatherDims.WF S30000x200 S4096x1 S4096x200 [1] [0] [] [0] [] 1 ![1, 200]
  gather_S230x200_S4096x1_S4096x200_1_0_n_n_0_1_1200_wf : GatherDims.WF S230x200 S4096x1 S4096x200 [1] [0] [] [0] [] 1 ![1, 200]
  gather_S365x1_S4096x1_S4096x1_1_0_n_n_0_1_11_wf : GatherDims.WF S365x1 S4096x1 S4096x1 [1] [0] [] [0] [] 1 ![1, 1]
  dot_S1024x200_S200x200_S1024x200_1_0_0_1_n_n_wf : DotDims.WF S1024x200 S200x200 S1024x200 [1] [0] [0] [1] [] []
  dot_S1024x200_S1920x200_S1024x1920_1_1_0_0_n_n_wf : DotDims.WF S1024x200 S1920x200 S1024x1920 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S4096x200.size a
  hwx0_0 : ∀ i : grid0.Coords, EltTy.bits .f32 = 32 ∨ (Rect.block (s := S4096x200) S1024x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x200.size a ≤ S4096x200.size a
  hwx0_1 : ∀ i : grid0.Coords, EltTy.bits .f32 = 32 ∨ (Rect.block (s := S4096x200) S1024x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x200.size a ≤ S200x200.size a
  hwx0_3 : ∀ i : grid0.Coords, EltTy.bits .bf16 = 32 ∨ (Rect.block (s := S200x200) S200x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x200.size a ≤ S200x200.size a
  hwx0_4 : ∀ i : grid0.Coords, EltTy.bits .bf16 = 32 ∨ (Rect.block (s := S200x200) S200x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .bf16 = 32 ∨ (Rect.block (s := S1x200) S1x200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x200.size a ≤ S1x200.size a
  hwx0_6 : ∀ i : grid0.Coords, EltTy.bits .f32 = 32 ∨ (Rect.block (s := S1x200) S1x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1920x200.size a ≤ S30720x200.size a
  hwx0_7 : ∀ i : grid0.Coords, EltTy.bits .bf16 = 32 ∨ (Rect.block (s := S30720x200) S1920x200.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1024x1920.size a < S4096x30000.size a
  hwx0_8 : ∀ i : grid0.Coords, EltTy.bits .f32 = 32 ∨ (Rect.unit (s := S4096x30000) (fun a => cc0_transform_8 i a * S1024x1920.size a) (fun a => (Pipeline.Clip.of (cc0_transform_8 i a) (S1024x1920.size a) (S4096x30000.size a)).extent (S1024x1920.size a)) fun a => Pipeline.Clip.inb (Pipeline.Clip.ok_of (hstart0_8 i a))).WholeWords (EltTy.packing .f32)
  hwxs0_8 : ∀ i : grid0.Coords, EltTy.bits .f32 = 32 ∨ (Rect.unit (s := S1024x1920) (fun _ => 0) (fun a => (Pipeline.Clip.of (cc0_transform_8 i a) (S1024x1920.size a) (S4096x30000.size a)).extent (S1024x1920.size a)) fun a => (Nat.zero_add _).trans_le (Pipeline.Clip.extent_le (Pipeline.Clip.ok_of (hstart0_8 i a)))).WholeWords (EltTy.packing .f32)

variable [Facts₀]

def gather_S40000x200_S600000x1_S600000x200_1_0_n_n_0_1_1200 : GatherDims S40000x200 S600000x1 S600000x200 where
  offsetDims := [1]
  collapsedSliceDims := [0]
  operandBatchingDims := []
  startIndicesBatchingDims := []
  startIndexMap := [0]
  indexVectorDim := 1
  sliceSizes := ![1, 200]
  wf := gather_S40000x200_S600000x1_S600000x200_1_0_n_n_0_1_1200_wf
def gather_S10x200_S600000x1_S600000x200_1_0_n_n_0_1_1200 : GatherDims S10x200 S600000x1 S600000x200 where
  offsetDims := [1]
  collapsedSliceDims := [0]
  operandBatchingDims := []
  startIndicesBatchingDims := []
  startIndexMap := [0]
  indexVectorDim := 1
  sliceSizes := ![1, 200]
  wf := gather_S10x200_S600000x1_S600000x200_1_0_n_n_0_1_1200_wf
def scatter_S40000x200_S600000x1_S600000x200_1_0_0_1 : ScatterDims S40000x200 S600000x1 S600000x200 where
  updateWindowDims := [1]
  insertedWindowDims := [0]
  scatterDimsToOperandDims := [0]
  indexVectorDim := 1
  wf := scatter_S40000x200_S600000x1_S600000x200_1_0_0_1_wf
def gather_S30000x200_S4096x1_S4096x200_1_0_n_n_0_1_1200 : GatherDims S30000x200 S4096x1 S4096x200 where
  offsetDims := [1]
  collapsedSliceDims := [0]
  operandBatchingDims := []
  startIndicesBatchingDims := []
  startIndexMap := [0]
  indexVectorDim := 1
  sliceSizes := ![1, 200]
  wf := gather_S30000x200_S4096x1_S4096x200_1_0_n_n_0_1_1200_wf
def gather_S230x200_S4096x1_S4096x200_1_0_n_n_0_1_1200 : GatherDims S230x200 S4096x1 S4096x200 where
  offsetDims := [1]
  collapsedSliceDims := [0]
  operandBatchingDims := []
  startIndicesBatchingDims := []
  startIndexMap := [0]
  indexVectorDim := 1
  sliceSizes := ![1, 200]
  wf := gather_S230x200_S4096x1_S4096x200_1_0_n_n_0_1_1200_wf
def gather_S365x1_S4096x1_S4096x1_1_0_n_n_0_1_11 : GatherDims S365x1 S4096x1 S4096x1 where
  offsetDims := [1]
  collapsedSliceDims := [0]
  operandBatchingDims := []
  startIndicesBatchingDims := []
  startIndexMap := [0]
  indexVectorDim := 1
  sliceSizes := ![1, 1]
  wf := gather_S365x1_S4096x1_S4096x1_1_0_n_n_0_1_11_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S1024x200_S1920x200_S1024x1920_1_1_0_0_n_n : DotDims S1024x200 S1920x200 S1024x1920 where
  lhsContracting := [1]
  rhsContracting := [1]
  lhsNonContracting := [0]
  rhsNonContracting := [0]
  lhsBatch := []
  rhsBatch := []
  wf := dot_S1024x200_S1920x200_S1024x1920_1_1_0_0_n_n_wf

abbrev win0_0 : Pipeline.Window sig grid0 :=
  Pipeline.Window.ofSpec (Memref.whole main_v40) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1024x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S200x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S200x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v63) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v64) S1x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S1920x200.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpecClip (Memref.whole main_v67) S1024x1920.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S30000x200 : Shape := ⟨2, ![30000, 200]⟩
abbrev S10000x200 : Shape := ⟨2, ![10000, 200]⟩
abbrev S230x200 : Shape := ⟨2, ![230, 200]⟩
abbrev S365x1 : Shape := ⟨2, ![365, 1]⟩
abbrev S10x200 : Shape := ⟨2, ![10, 200]⟩
abbrev S200x401 : Shape := ⟨2, ![200, 401]⟩
abbrev S200 : Shape := ⟨1, ![200]⟩
abbrev S40000x1 : Shape := ⟨2, ![40000, 1]⟩
abbrev S600000 : Shape := ⟨1, ![600000]⟩
abbrev S4096x4 : Shape := ⟨2, ![4096, 4]⟩
abbrev S40000x200 : Shape := ⟨2, ![40000, 200]⟩
abbrev S_ : Shape := ⟨0, ![]⟩
abbrev S600000x1 : Shape := ⟨2, ![600000, 1]⟩
abbrev S600000x200 : Shape := ⟨2, ![600000, 200]⟩
abbrev S4096x1 : Shape := ⟨2, ![4096, 1]⟩
abbrev S4096 : Shape := ⟨1, ![4096]⟩
abbrev S4096x200 : Shape := ⟨2, ![4096, 200]⟩
abbrev S4096x401 : Shape := ⟨2, ![4096, 401]⟩
abbrev S401x200 : Shape := ⟨2, ![401, 200]⟩
abbrev S1x200 : Shape := ⟨2, ![1, 200]⟩
abbrev S200x30000 : Shape := ⟨2, ![200, 30000]⟩
abbrev S4096x30000 : Shape := ⟨2, ![4096, 30000]⟩

abbrev nBuf : Space → Nat
  | .hbm => 109
  | .vmem => 0
  | .smem => 0
  | _ => 0

abbrev bufTy : (tb : Table) → Fin (tcTables nBuf tb) → BufTy
  | .hbm, ⟨0, _⟩ => ⟨S30000x200, .f32⟩
  | .hbm, ⟨1, _⟩ => ⟨S10000x200, .f32⟩
  | .hbm, ⟨2, _⟩ => ⟨S230x200, .f32⟩
  | .hbm, ⟨3, _⟩ => ⟨S365x1, .f32⟩
  | .hbm, ⟨4, _⟩ => ⟨S10x200, .f32⟩
  | .hbm, ⟨5, _⟩ => ⟨S200x401, .f32⟩
  | .hbm, ⟨6, _⟩ => ⟨S200, .f32⟩
  | .hbm, ⟨7, _⟩ => ⟨S40000x1, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S4096x4, .i32⟩
  | .hbm, ⟨12, _⟩ => ⟨S40000x200, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x200, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x200, .f32⟩
  | .hbm, ⟨31, _⟩ => ⟨S600000x200, .f32⟩
  | .hbm, ⟨32, _⟩ => ⟨S_, .f32⟩
  | .hbm, ⟨33, _⟩ => ⟨S40000x200, .f32⟩
  | .hbm, ⟨34, _⟩ => ⟨S600000x1, .i32⟩
  | .hbm, ⟨35, _⟩ => ⟨S40000x200, .f32⟩
  | .hbm, ⟨36, _⟩ => ⟨S40000x200, .f32⟩
  | .hbm, ⟨37, _⟩ => ⟨S40000x200, .f32⟩
  | .hbm, ⟨38, _⟩ => ⟨S_, .f32⟩
  | .hbm, ⟨39, _⟩ => ⟨S40000x200, .f32⟩
  | .hbm, ⟨40, _⟩ => ⟨S40000x200, .i1⟩
  | .hbm, ⟨41, _⟩ => ⟨S_, .f32⟩
  | .hbm, ⟨42, _⟩ => ⟨S40000x200, .f32⟩
  | .hbm, ⟨43, _⟩ => ⟨S40000x200, .f32⟩
  | .hbm, ⟨44, _⟩ => ⟨S40000x200, .f32⟩
  | .hbm, ⟨45, _⟩ => ⟨S30000x200, .f32⟩
  | .hbm, ⟨46, _⟩ => ⟨S4096x1, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x200, .f32⟩
  | .hbm, ⟨57, _⟩ => ⟨S4096x1, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x200, .f32⟩
  | .hbm, ⟨68, _⟩ => ⟨S4096x1, .i32⟩
  | .hbm, ⟨69, _⟩ => ⟨S4096, .i32⟩
  | .hbm, ⟨70, _⟩ => ⟨S_, .i32⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S4096, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x1, .f32⟩
  | .hbm, ⟨97, _⟩ => ⟨S4096x200, .f32⟩
  | .hbm, ⟨98, _⟩ => ⟨S4096x401, .f32⟩
  | .hbm, ⟨99, _⟩ => ⟨S401x200, .f32⟩
  | .hbm, ⟨100, _⟩ => ⟨S4096x200, .f32⟩
  | .hbm, ⟨101, _⟩ => ⟨S1x200, .f32⟩
  | .hbm, ⟨102, _⟩ => ⟨S4096x200, .f32⟩
  | .hbm, ⟨103, _⟩ => ⟨S4096x200, .f32⟩
  | .hbm, ⟨104, _⟩ => ⟨S_, .f32⟩
  | .hbm, ⟨105, _⟩ => ⟨S4096x200, .f32⟩
  | .hbm, ⟨106, _⟩ => ⟨S4096x200, .f32⟩
  | .hbm, ⟨107, _⟩ => ⟨S200x30000, .f32⟩
  | .hbm, ⟨108, _⟩ => ⟨S4096x30000, .f32⟩
  | _, _ => ⟨S30000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v47 : Ref sig .tc := ⟨.hbm, 87, rfl⟩
abbrev main_c_10 : Ref sig .tc := ⟨.hbm, 88, rfl⟩
abbrev main_v48 : Ref sig .tc := ⟨.hbm, 89, rfl⟩
abbrev main_v49 : Ref sig .tc := ⟨.hbm, 90, rfl⟩
abbrev main_c_11 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call2_cst : Ref sig .tc := ⟨.hbm, 104, rfl⟩
abbrev main_call2_v0 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]

class Facts₀ : Prop where
  concatenates_S30000x200_S10000x200_S40000x200_d0 : Shape.Concatenates [S30000x200, S10000x200] S40000x200 0
  bcast_S_S600000 : S_.BroadcastsInDim S600000 (![] : Fin 0 → Fin S600000.rank)
  bcast_S600000_S600000x1_0 : S600000.BroadcastsInDim S600000x1 (![0] : Fin 1 → Fin S600000x1.rank)
  bcast_S_S40000x200 : S_.BroadcastsInDim S40000x200 (![] : Fin 0 → Fin S40000x200.rank)
  bcast_S40000x1_S40000x200_0_1 : S40000x1.BroadcastsInDim S40000x200 (![0, 1] : Fin 2 → Fin S40000x200.rank)
  slices_S40000x200_S30000x200_0_0 : S40000x200.Slices ![0, 0] S30000x200
  slices_S4096x4_S4096x1_0_0 : S4096x4.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x4_S4096x1_0_1 : S4096x4.Slices ![0, 1] S4096x1
  slices_S4096x4_S4096x1_0_3 : S4096x4.Slices ![0, 3] S4096x1
  concatenates_S4096x200_S4096x200_S4096x1_S4096x401_d1 : Shape.Concatenates [S4096x200, S4096x200, S4096x1] S4096x401 1
  transposes_S200x401_S401x200_1_0 : S200x401.Transposes [1, 0] S401x200
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  transposes_S30000x200_S200x30000_1_0 : S30000x200.Transposes [1, 0] S200x30000
  gather_S40000x200_S600000x1_S600000x200_1_0_n_n_0_1_1200_wf : GatherDims.WF S40000x200 S600000x1 S600000x200 [1] [0] [] [0] [] 1 ![1, 200]
  gather_S10x200_S600000x1_S600000x200_1_0_n_n_0_1_1200_wf : GatherDims.WF S10x200 S600000x1 S600000x200 [1] [0] [] [0] [] 1 ![1, 200]
  scatter_S40000x200_S600000x1_S600000x200_1_0_0_1_wf : ScatterDims.WF S40000x200 S600000x1 S600000x200 [1] [0] [0] 1
  gather_S30000x200_S4096x1_S4096x200_1_0_n_n_0_1_1200_wf : GatherDims.WF S30000x200 S4096x1 S4096x200 [1] [0] [] [0] [] 1 ![1, 200]
  gather_S230x200_S4096x1_S4096x200_1_0_n_n_0_1_1200_wf : GatherDims.WF S230x200 S4096x1 S4096x200 [1] [0] [] [0] [] 1 ![1, 200]
  gather_S365x1_S4096x1_S4096x1_1_0_n_n_0_1_11_wf : GatherDims.WF S365x1 S4096x1 S4096x1 [1] [0] [] [0] [] 1 ![1, 1]
  dot_S4096x401_S401x200_S4096x200_1_0_0_1_n_n_wf : DotDims.WF S4096x401 S401x200 S4096x200 [1] [0] [0] [1] [] []
  dot_S4096x200_S200x30000_S4096x30000_1_0_0_1_n_n_wf : DotDims.WF S4096x200 S200x30000 S4096x30000 [1] [0] [0] [1] [] []

variable [Facts₀]

def gather_S40000x200_S600000x1_S600000x200_1_0_n_n_0_1_1200 : GatherDims S40000x200 S600000x1 S600000x200 where
  offsetDims := [1]
  collapsedSliceDims := [0]
  operandBatchingDims := []
  startIndicesBatchingDims := []
  startIndexMap := [0]
  indexVectorDim := 1
  sliceSizes := ![1, 200]
  wf := gather_S40000x200_S600000x1_S600000x200_1_0_n_n_0_1_1200_wf
def gather_S10x200_S600000x1_S600000x200_1_0_n_n_0_1_1200 : GatherDims S10x200 S600000x1 S600000x200 where
  offsetDims := [1]
  collapsedSliceDims := [0]
  operandBatchingDims := []
  startIndicesBatchingDims := []
  startIndexMap := [0]
  indexVectorDim := 1
  sliceSizes := ![1, 200]
  wf := gather_S10x200_S600000x1_S600000x200_1_0_n_n_0_1_1200_wf
def scatter_S40000x200_S600000x1_S600000x200_1_0_0_1 : ScatterDims S40000x200 S600000x1 S600000x200 where
  updateWindowDims := [1]
  insertedWindowDims := [0]
  scatterDimsToOperandDims := [0]
  indexVectorDim := 1
  wf := scatter_S40000x200_S600000x1_S600000x200_1_0_0_1_wf
def gather_S30000x200_S4096x1_S4096x200_1_0_n_n_0_1_1200 : GatherDims S30000x200 S4096x1 S4096x200 where
  offsetDims := [1]
  collapsedSliceDims := [0]
  operandBatchingDims := []
  startIndicesBatchingDims := []
  startIndexMap := [0]
  indexVectorDim := 1
  sliceSizes := ![1, 200]
  wf := gather_S30000x200_S4096x1_S4096x200_1_0_n_n_0_1_1200_wf
def gather_S230x200_S4096x1_S4096x200_1_0_n_n_0_1_1200 : GatherDims S230x200 S4096x1 S4096x200 where
  offsetDims := [1]
  collapsedSliceDims := [0]
  operandBatchingDims := []
  startIndicesBatchingDims := []
  startIndexMap := [0]
  indexVectorDim := 1
  sliceSizes := ![1, 200]
  wf := gather_S230x200_S4096x1_S4096x200_1_0_n_n_0_1_1200_wf
def gather_S365x1_S4096x1_S4096x1_1_0_n_n_0_1_11 : GatherDims S365x1 S4096x1 S4096x1 where
  offsetDims := [1]
  collapsedSliceDims := [0]
  operandBatchingDims := []
  startIndicesBatchingDims := []
  startIndexMap := [0]
  indexVectorDim := 1
  sliceSizes := ![1, 1]
  wf := gather_S365x1_S4096x1_S4096x1_1_0_n_n_0_1_11_wf
def dot_S4096x401_S401x200_S4096x200_1_0_0_1_n_n : DotDims S4096x401 S401x200 S4096x200 where
  lhsContracting := [1]
  rhsContracting := [0]
  lhsNonContracting := [0]
  rhsNonContracting := [1]
  lhsBatch := []
  rhsBatch := []
  wf := dot_S4096x401_S401x200_S4096x200_1_0_0_1_n_n_wf
def dot_S4096x200_S200x30000_S4096x30000_1_0_0_1_n_n : DotDims S4096x200 S200x30000 S4096x30000 where
  lhsContracting := [1]
  rhsContracting := [0]
  lhsNonContracting := [0]
  rhsNonContracting := [1]
  lhsBatch := []
  rhsBatch := []
  wf := dot_S4096x200_S200x30000_S4096x30000_1_0_0_1_n_n_wf

class Facts : Prop extends Facts₀ where

variable [Facts]
-- ==== Proof.KernelIndex.lean ====
/-
  The decoder kernel's grid arithmetic and the function its result array ends holding.

  The grid has 4 × 16 points; point t works on batch tile I = t / 16 (1024 rows) and column tile J = t % 16
  (1920 rows of the padded static_emb). The carried scratch holds, after every point of batch tile I, the decoder
  row block Y[1024·I + r, k]: the first point of the tile stores it and the fifteen others leave it. The output
  block of point t is out[1024·I + r, 1920·J + q] = ∑_k Y[1024·I + r, k] · sem[1920·J + q, k]; the blocks of the
  last column tile overhang the array and are cut at column 30000. The 64 blocks cover the array, so it ends
  holding that function.
-/
import proofs.«158429_j18803366822339_2_alg».proof.Proof.Gen.KernelIdeal.Value
import Idealize.ShloMosaic.Lib.Pipeline.Value
import Idealize.ShloMosaic.Lib.ValueIdx

noncomputable section
open scoped BigOperators
namespace Cert.KernelIdeal.KValue
open Cert.KernelIdeal Cert.KernelIdeal.Gen Idealize.ShloMosaic Idealize.ShloMosaic.TcCoe Idealize.SL.Sem
open Idealize.ShloMosaic.ValueIdx
open Idealize.ShloMosaic.Pipeline (Dat)

/-- The decoder row entry Y[b, k] of the six decoder operands. -/
def yRow (ent rel : S4096x200.Idx → EReal) (tim : S4096x1.Idx → EReal) (we wr : S200x200.Idx → EReal)
    (wt db : S1x200.Idx → EReal) (b : Fin 4096) (k : Fin 200) : EReal :=
  max ((∑ j : Fin 200, Ideal.tanh (ent (ix2 b j)) * we (ix2 j k)) + (∑ j : Fin 200, rel (ix2 b j) * wr (ix2 j k))
    + tim (ix2 b (0 : Fin 1)) * wt (ix2 (0 : Fin 1) k) + db (ix2 (0 : Fin 1) k)) 0

/-- The result: out[b, n] = ∑_k Y[b, k] · sem[n, k], with sem the row-padded static_emb. -/
def outFn (ent rel : S4096x200.Idx → EReal) (tim : S4096x1.Idx → EReal) (we wr : S200x200.Idx → EReal)
    (wt db : S1x200.Idx → EReal) (sem : S30720x200.Idx → EReal) : S4096x30000.Idx → EReal :=
  fun i => ∑ k : Fin 200, yRow ent rel tim we wr wt db ⟨(i 0).val, idx2_lt0 i⟩ k
    * sem (ix2 (⟨(i 1).val, by have := idx2_lt1 i; omega⟩ : Fin 30720) k)

/-- Batch tile and column tile of a grid point, and the rows they address. -/
def tileI (t : Fin cfg0.N) : Fin 4 := ⟨t.val / 16, by have := t.isLt; have hN : cfg0.N = 64 := N_0; omega⟩
def tileJ (t : Fin cfg0.N) : Fin 16 := ⟨t.val % 16, Nat.mod_lt _ (by decide)⟩
def rowOf (I : Fin 4) (r : Fin 1024) : Fin 4096 := ⟨I.val * 1024 + r.val, by have := I.isLt; have := r.isLt; omega⟩
def colOf (J : Fin 16) (q : Fin 1920) : Fin 30720 := ⟨J.val * 1920 + q.val, by have := J.isLt; have := q.isLt; omega⟩

variable (m : (ℓ : Loc nD τ sig) → Buf (Elt Ideal) ℓ) (ρ : Dev nD → PrngReg)

/-- The printed index maps over the 64 points: the three row-blocked inputs and the output follow the batch tile, the
    static_emb rows and the output's columns the column tile, the four small operands are whole. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val % 16 ∧ win0_7.index t (1 : Fin 2) = 0
    ∧ win0_8.index t (0 : Fin 2) = t.val / 16 ∧ win0_8.index t (1 : Fin 2) = t.val % 16 :=
  (by decide +kernel : ∀ t : Fin grid0.N, _)

/-- The part of the output block inside the array: all 1024 rows, and 1920 columns except 1200 in the last column tile. -/
theorem xsize_facts : ∀ t : Fin cfg0.N,
    win0_8.xsize (grid0.coords t) (0 : Fin 2) = 1024
    ∧ win0_8.xsize (grid0.coords t) (1 : Fin 2) = (if t.val % 16 = 15 then 1200 else 1920) :=
  (by decide +kernel : ∀ t : Fin grid0.N, _)

end Cert.KernelIdeal.KValue
end
-- ==== Proof.KernelBlocks.lean ====
/-
  The decoder kernel's input blocks read through their windows: at point t the three row-blocked inputs hold rows
  1024·(t / 16) + r of their arrays, the four small operands are whole, and the static_emb tile holds rows
  1920·(t % 16) + q of the padded array.
-/
import proofs.«158429_j18803366822339_2_alg».proof.Proof.KernelIndex

noncomputable section
open scoped BigOperators
namespace Cert.KernelIdeal.KValue
open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem iblk0 (c : Dev nD) (t : Fin cfg0.N) (r : Fin 1024) (j : Fin 200) :
    (iblk m c 0 t : S1024x200.Idx → EReal) (ix2 r j) = (V m c main_v40 : S4096x200.Idx → EReal) (ix2 (rowOf (tileI t) r) j) := by
  obtain ⟨e00, e01, e10, e11, e20, e21, e30, e31, e40, e41, e50, e51, e60, e61, e70, e71, -⟩ := idx_facts t
  show (V m c main_v40 : S4096x200.Idx → EReal) (((cfg0.win 0).blk t).view.emb (ix2 r j)) = _
  refine congrArg (V m c main_v40 : S4096x200.Idx → EReal) (funext fun a => Fin.ext ?_)
  match a with
  | ⟨0, _⟩ => show win0_0.index t (0 : Fin 2) * 1024 + 1 * r.val = t.val / 16 * 1024 + r.val; rw [e00]; omega
  | ⟨1, _⟩ => show win0_0.index t (1 : Fin 2) * 200 + 1 * j.val = j.val; rw [e01]; omega

theorem iblk1 (c : Dev nD) (t : Fin cfg0.N) (r : Fin 1024) (j : Fin 200) :
    (iblk m c 1 t : S1024x200.Idx → EReal) (ix2 r j) = (V m c main_v47 : S4096x200.Idx → EReal) (ix2 (rowOf (tileI t) r) j) := by
  obtain ⟨e00, e01, e10, e11, e20, e21, e30, e31, e40, e41, e50, e51, e60, e61, e70, e71, -⟩ := idx_facts t
  show (V m c main_v47 : S4096x200.Idx → EReal) (((cfg0.win 1).blk t).view.emb (ix2 r j)) = _
  refine congrArg (V m c main_v47 : S4096x200.Idx → EReal) (funext fun a => Fin.ext ?_)
  match a with
  | ⟨0, _⟩ => show win0_1.index t (0 : Fin 2) * 1024 + 1 * r.val = t.val / 16 * 1024 + r.val; rw [e10]; omega
  | ⟨1, _⟩ => show win0_1.index t (1 : Fin 2) * 200 + 1 * j.val = j.val; rw [e11]; omega

theorem iblk2 (c : Dev nD) (t : Fin cfg0.N) (r : Fin 1024) (j : Fin 1) :
    (iblk m c 2 t : S1024x1.Idx → EReal) (ix2 r j) = (V m c main_v54 : S4096x1.Idx → EReal) (ix2 (rowOf (tileI t) r) j) := by
  obtain ⟨e00, e01, e10, e11, e20, e21, e30, e31, e40, e41, e50, e51, e60, e61, e70, e71, -⟩ := idx_facts t
  show (V m c main_v54 : S4096x1.Idx → EReal) (((cfg0.win 2).blk t).view.emb (ix2 r j)) = _
  refine congrArg (V m c main_v54 : S4096x1.Idx → EReal) (funext fun a => Fin.ext ?_)
  match a with
  | ⟨0, _⟩ => show win0_2.index t (0 : Fin 2) * 1024 + 1 * r.val = t.val / 16 * 1024 + r.val; rw [e20]; omega
  | ⟨1, _⟩ => show win0_2.index t (1 : Fin 2) * 1 + 1 * j.val = j.val; rw [e21]; omega

theorem iblk3 (c : Dev nD) (t : Fin cfg0.N) (r : Fin 200) (j : Fin 200) :
    (iblk m c 3 t : S200x200.Idx → EReal) (ix2 r j) = (V m c main_v57 : S200x200.Idx → EReal) (ix2 r j) := by
  obtain ⟨e00, e01, e10, e11, e20, e21, e30, e31, e40, e41, e50, e51, e60, e61, e70, e71, -⟩ := idx_facts t
  show (V m c main_v57 : S200x200.Idx → EReal) (((cfg0.win 3).blk t).view.emb (ix2 r j)) = _
  refine congrArg (V m c main_v57 : S200x200.Idx → EReal) (funext fun a => Fin.ext ?_)
  match a with
  | ⟨0, _⟩ => show win0_3.index t (0 : Fin 2) * 200 + 1 * r.val = r.val; rw [e30]; omega
  | ⟨1, _⟩ => show win0_3.index t (1 : Fin 2) * 200 + 1 * j.val = j.val; rw [e31]; omega

theorem iblk4 (c : Dev nD) (t : Fin cfg0.N) (r : Fin 200) (j : Fin 200) :
    (iblk m c 4 t : S200x200.Idx → EReal) (ix2 r j) = (V m c main_v60 : S200x200.Idx → EReal) (ix2 r j) := by
  obtain ⟨e00, e01, e10, e11, e20, e21, e30, e31, e40, e41, e50, e51, e60, e61, e70, e71, -⟩ := idx_facts t
  show (V m c main_v60 : S200x200.Idx → EReal) (((cfg0.win 4).blk t).view.emb (ix2 r j)) = _
  refine congrArg (V m c main_v60 : S200x200.Idx → EReal) (funext fun a => Fin.ext ?_)
  match a with
  | ⟨0, _⟩ => show win0_4.index t (0 : Fin 2) * 200 + 1 * r.val = r.val; rw [e40]; omega
  | ⟨1, _⟩ => show win0_4.index t (1 : Fin 2) * 200 + 1 * j.val = j.val; rw [e41]; omega

theorem iblk5 (c : Dev nD) (t : Fin cfg0.N) (r : Fin 1) (j : Fin 200) :
    (iblk m c 5 t : S1x200.Idx → EReal) (ix2 r j) = (V m c main_v63 : S1x200.Idx → EReal) (ix2 r j) := by
  obtain ⟨e00, e01, e10, e11, e20, e21, e30, e31, e40, e41, e50, e51, e60, e61, e70, e71, -⟩ := idx_facts t
  show (V m c main_v63 : S1x200.Idx → EReal) (((cfg0.win 5).blk t).view.emb (ix2 r j)) = _
  refine congrArg (V m c main_v63 : S1x200.Idx → EReal) (funext fun a => Fin.ext ?_)
  match a with
  | ⟨0, _⟩ => show win0_5.index t (0 : Fin 2) * 1 + 1 * r.val = r.val; rw [e50]; omega
  | ⟨1, _⟩ => show win0_5.index t (1 : Fin 2) * 200 + 1 * j.val = j.val; rw [e51]; omega

theorem iblk6 (c : Dev nD) (t : Fin cfg0.N) (r : Fin 1) (j : Fin 200) :
    (iblk m c 6 t : S1x200.Idx → EReal) (ix2 r j) = (V m c main_v64 : S1x200.Idx → EReal) (ix2 r j) := by
  obtain ⟨e00, e01, e10, e11, e20, e21, e30, e31, e40, e41, e50, e51, e60, e61, e70, e71, -⟩ := idx_facts t
  show (V m c main_v64 : S1x200.Idx → EReal) (((cfg0.win 6).blk t).view.emb (ix2 r j)) = _
  refine congrArg (V m c main_v64 : S1x200.Idx → EReal) (funext fun a => Fin.ext ?_)
  match a with
  | ⟨0, _⟩ => show win0_6.index t (0 : Fin 2) * 1 + 1 * r.val = r.val; rw [e60]; omega
  | ⟨1, _⟩ => show win0_6.index t (1 : Fin 2) * 200 + 1 * j.val = j.val; rw [e61]; omega

theorem iblk7 (c : Dev nD) (t : Fin cfg0.N) (r : Fin 1920) (j : Fin 200) :
    (iblk m c 7 t : S1920x200.Idx → EReal) (ix2 r j) = (V m c main_v66 : S30720x200.Idx → EReal) (ix2 (colOf (tileJ t) r) j) := by
  obtain ⟨e00, e01, e10, e11, e20, e21, e30, e31, e40, e41, e50, e51, e60, e61, e70, e71, -⟩ := idx_facts t
  show (V m c main_v66 : S30720x200.Idx → EReal) (((cfg0.win 7).blk t).view.emb (ix2 r j)) = _
  refine congrArg (V m c main_v66 : S30720x200.Idx → EReal) (funext fun a => Fin.ext ?_)
  match a with
  | ⟨0, _⟩ => show win0_7.index t (0 : Fin 2) * 1920 + 1 * r.val = t.val % 16 * 1920 + r.val; rw [e70]; omega
  | ⟨1, _⟩ => show win0_7.index t (1 : Fin 2) * 200 + 1 * j.val = j.val; rw [e71]; omega

end Cert.KernelIdeal.KValue
end
-- ==== Proof.KernelPieces.lean ====
/-
  What each control case of the decoder kernel's body leaves behind, read back as values. At a point with
  column-tile index 0 the body stores the decoder row block y = relu(tanh(ent)·WeT + rel·WrT + tim·wt + b) into
  the carried scratch and then the product of that block with the current tile of static_emb rows into the
  output block; at every other point it leaves the scratch as it found it and stores the product of the carried
  block with the tile. Generic in the float instance.
-/
import proofs.«158429_j18803366822339_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- At a first column tile the scratch ends holding the decoder row block of the point's input blocks. -/
theorem scratch_A (c : Dev nD) (i : grid0.Coords) (arg2 : Memref sig .tc .vmem S1024x200 .f32) (harg2 : arg2.IsWhole) (arg3 : Memref sig .tc .vmem S1024x200 .f32) (harg3 : arg3.IsWhole) (arg4 : Memref sig .tc .vmem S1024x1 .f32) (harg4 : arg4.IsWhole) (arg5 : Memref sig .tc .vmem S200x200 .bf16) (harg5 : arg5.IsWhole) (arg6 : Memref sig .tc .vmem S200x200 .bf16) (harg6 : arg6.IsWhole) (arg7 : Memref sig .tc .vmem S1x200 .bf16) (harg7 : arg7.IsWhole) (arg8 : Memref sig .tc .vmem S1x200 .f32) (harg8 : arg8.IsWhole) (arg9 : Memref sig .tc .vmem S1920x200 .bf16) (harg9 : arg9.IsWhole) (arg10 : Memref sig .tc .vmem S1024x1920 .f32) (harg10 : arg10.IsWhole) (arg11 : Memref sig .tc .vmem S1024x200 .f32) (harg11 : arg11.IsWhole) (hc0 : cond0_0 i) (x0 : Vec F S1024x200 .f32) (x1 : Vec F S1024x200 .f32) (x2 : Vec F S1024x1 .f32) (x3 : Vec F S200x200 .bf16) (x4 : Vec F S200x200 .bf16) (x5 : Vec F S1x200 .bf16) (x6 : Vec F S1x200 .f32) (x7 : Vec F S1920x200 .bf16) :
    sout0_A_0 c i arg2 harg2 arg3 harg3 arg4 harg4 arg5 harg5 arg6 harg6 arg7 harg7 arg8 harg8 arg9 harg9 arg10 harg10 arg11 harg11 hc0 x0 x1 x2 x3 x4 x5 x6 x7 = k0_pay1 x0 x1 x2 x3 x4 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread,
    harg6.read_unread, harg7.read_unread, harg8.read_unread, View.ld_unit_zero (S := S1024x200) hz,
    View.ld_unit_zero (S := S1024x1) hz, View.ld_unit_zero (S := S200x200) hz, View.ld_unit_zero (S := S1x200) hz]

/-- At a first column tile the output block is the product of that row block with the static_emb tile. -/
theorem out_A (c : Dev nD) (i : grid0.Coords) (arg2 : Memref sig .tc .vmem S1024x200 .f32) (harg2 : arg2.IsWhole) (arg3 : Memref sig .tc .vmem S1024x200 .f32) (harg3 : arg3.IsWhole) (arg4 : Memref sig .tc .vmem S1024x1 .f32) (harg4 : arg4.IsWhole) (arg5 : Memref sig .tc .vmem S200x200 .bf16) (harg5 : arg5.IsWhole) (arg6 : Memref sig .tc .vmem S200x200 .bf16) (harg6 : arg6.IsWhole) (arg7 : Memref sig .tc .vmem S1x200 .bf16) (harg7 : arg7.IsWhole) (arg8 : Memref sig .tc .vmem S1x200 .f32) (harg8 : arg8.IsWhole) (arg9 : Memref sig .tc .vmem S1920x200 .bf16) (harg9 : arg9.IsWhole) (arg10 : Memref sig .tc .vmem S1024x1920 .f32) (harg10 : arg10.IsWhole) (arg11 : Memref sig .tc .vmem S1024x200 .f32) (harg11 : arg11.IsWhole) (hc0 : cond0_0 i) (x0 : Vec F S1024x200 .f32) (x1 : Vec F S1024x200 .f32) (x2 : Vec F S1024x1 .f32) (x3 : Vec F S200x200 .bf16) (x4 : Vec F S200x200 .bf16) (x5 : Vec F S1x200 .bf16) (x6 : Vec F S1x200 .f32) (x7 : Vec F S1920x200 .bf16) :
    out0_A_8 c i arg2 harg2 arg3 harg3 arg4 harg4 arg5 harg5 arg6 harg6 arg7 harg7 arg8 harg8 arg9 harg9 arg10 harg10 arg11 harg11 hc0 x0 x1 x2 x3 x4 x5 x6 x7 = k0_pay2 (k0_pay1 x0 x1 x2 x3 x4 x5 x6) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz, View.readCov_unit_zero (S := S1024x200) _ hz]
  simp only [View.readAt_eq_ld, harg2.read_unread, harg3.read_unread, harg4.read_unread, harg5.read_unread,
    harg6.read_unread, harg7.read_unread, harg8.read_unread, harg9.read_unread, View.ld_unit_zero (S := S1024x200) hz,
    View.ld_unit_zero (S := S1024x1) hz, View.ld_unit_zero (S := S200x200) hz, View.ld_unit_zero (S := S1x200) hz,
    View.ld_unit_zero (S := S1920x200) hz]

/-- At any other column tile the output block is the product of the carried row block with the tile. -/
theorem out_B (c : Dev nD) (i : grid0.Coords) (arg2 : Memref sig .tc .vmem S1024x200 .f32) (harg2 : arg2.IsWhole) (arg3 : Memref sig .tc .vmem S1024x200 .f32) (harg3 : arg3.IsWhole) (arg4 : Memref sig .tc .vmem S1024x1 .f32) (harg4 : arg4.IsWhole) (arg5 : Memref sig .tc .vmem S200x200 .bf16) (harg5 : arg5.IsWhole) (arg6 : Memref sig .tc .vmem S200x200 .bf16) (harg6 : arg6.IsWhole) (arg7 : Memref sig .tc .vmem S1x200 .bf16) (harg7 : arg7.IsWhole) (arg8 : Memref sig .tc .vmem S1x200 .f32) (harg8 : arg8.IsWhole) (arg9 : Memref sig .tc .vmem S1920x200 .bf16) (harg9 : arg9.IsWhole) (arg10 : Memref sig .tc .vmem S1024x1920 .f32) (harg10 : arg10.IsWhole) (arg11 : Memref sig .tc .vmem S1024x200 .f32) (harg11 : arg11.IsWhole) (hc0 : ¬cond0_0 i) (x0 : Vec F S1024x200 .f32) (x1 : Vec F S1024x200 .f32) (x2 : Vec F S1024x1 .f32) (x3 : Vec F S200x200 .bf16) (x4 : Vec F S200x200 .bf16) (x5 : Vec F S1x200 .bf16) (x6 : Vec F S1x200 .f32) (x7 : Vec F S1920x200 .bf16) (xs0 : Vec F S1024x200 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = k0_pay2 xs0 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  sl_unfold_words
  rw [View.canon_unit_zero hz]
  simp only [View.readAt_eq_ld, harg9.read_unread, harg11.read_unread, View.ld_unit_zero (S := S1024x200) hz,
    View.ld_unit_zero (S := S1920x200) hz]

end Cert.KernelIdeal.Pieces
end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.LibBroadcastRowCol.lean ====
/-
  A column broadcast read at an index.

  An array with `a` rows and ONE column, broadcast to `a` rows and `b` columns, holds at entry (p, c) the operand's
  entry (p, 0): every column of the result is the operand's one column. This is the keepdims column form of a
  broadcast; the companion row form (one row broadcast over many, entry (p, c) is the operand's (0, c)) is the
  library's `broadcastTo_1b_ab_apply`. Both are instances of `broadcastTo_apply`: on an axis where the operand's
  extent is 1 the operand's coordinate is 0, elsewhere it is the result's coordinate.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  The decoder kernel's two payloads read entry by entry over the extended reals.

  The row block: y[r, k] = max( ∑_j tanh(ent[r, j]) · WeT[j, k] + ∑_j rel[r, j] · WrT[j, k] + tim[r, 0] · wt[0, k]
  + b[0, k], 0 ): two matrix products into zero accumulators, the outer product of the time column with the
  weight row written as a product of two broadcasts, the bias row broadcast over the rows, and a maximum with zero.
  The changes of float format are the identity on extended reals.

  The output block: out[r, q] = ∑_k y[r, k] · sem[q, k], one product contracted over the SECOND axis of both operands.
-/
import proofs.«158429_j18803366822339_2_alg».proof.Proof.Gen.KernelIdeal.Skeleton
import proofs.«158429_j18803366822339_2_alg».proof.Proof.LibMatmulBlock
import proofs.«158429_j18803366822339_2_alg».proof.Proof.LibBroadcastRowCol
import Idealize.ShloMosaic.Lib.Pipeline.Value
import Idealize.ShloMosaic.Lib.ValueIdx
import Idealize.ShloMosaic.Lib.ValueLayout
import Idealize.ShloMosaic.PureOps.Ideal.Laws

noncomputable section
open scoped BigOperators
namespace Cert.KernelIdeal.Body
open Cert.KernelIdeal Cert.KernelIdeal.Gen Idealize.ShloMosaic Idealize.ShloMosaic.ValueIdx

/-- One entry of the decoder row block, as a function of the seven input blocks. -/
def yEntry (x0 x1 : FVec Ideal S1024x200 .f32) (x2 : FVec Ideal S1024x1 .f32) (x3 x4 : FVec Ideal S200x200 .bf16)
    (x5 : FVec Ideal S1x200 .bf16) (x6 : FVec Ideal S1x200 .f32) (r : Fin 1024) (k : Fin 200) : EReal :=
  max ((∑ j : Fin 200, Ideal.tanh (x0 (ix2 r j)) * x3 (ix2 j k)) + (∑ j : Fin 200, x1 (ix2 r j) * x4 (ix2 j k))
    + x2 (ix2 r (0 : Fin 1)) * x5 (ix2 (0 : Fin 1) k) + x6 (ix2 (0 : Fin 1) k)) 0

/-- The row-block payload at entry (r, k). -/
theorem pay1_apply (x0 x1 : FVec Ideal S1024x200 .f32) (x2 : FVec Ideal S1024x1 .f32) (x3 x4 : FVec Ideal S200x200 .bf16)
    (x5 : FVec Ideal S1x200 .bf16) (x6 : FVec Ideal S1x200 .f32) (r : Fin 1024) (k : Fin 200) :
    k0_pay1 (F := Ideal) x0 x1 x2 x3 x4 x5 x6 (ix2 r k) = yEntry x0 x1 x2 x3 x4 x5 x6 r k := by
  unfold k0_pay1 yEntry
  simp only [shapeCast_self]
  rw [maximumf_apply, addf_apply, addf_apply, addf_apply, mulf_apply, broadcast_apply]
  unfold dot_S1024x200_S200x200_S1024x200_1_0_0_1_n_n
  rw [Cert.LibMatmulBlock.matmul_zero_apply, Cert.LibMatmulBlock.matmul_zero_apply, broadcastTo_a1_ab_apply,
    broadcastTo_1b_ab_apply, broadcastTo_1b_ab_apply]
  have hz : (FloatOps.ofBits (F := Ideal) .f32 0x00000000#32 : EReal) = 0 := Ideal.ofBits_zero_f32
  rw [hz]
  rfl

/-- The left operand's index of the output-block product: row `i 0`, contracted coordinate. -/
theorem lhs2_0 (i : S1024x1920.Idx) (q : dot_S1024x200_S1920x200_S1024x1920_1_1_0_0_n_n.contr.Idx) : (dot_S1024x200_S1920x200_S1024x1920_1_1_0_0_n_n.lhsIdx i q 0).val = (i 0).val := by
  unfold DotDims.lhsIdx
  rw [dif_neg (show ¬(0 : Fin S1024x200.rank) ∈ dot_S1024x200_S1920x200_S1024x1920_1_1_0_0_n_n.lhsBatch by decide), dif_pos (show (0 : Fin S1024x200.rank) ∈ dot_S1024x200_S1920x200_S1024x1920_1_1_0_0_n_n.lhsNonContracting by decide)]
  rfl
theorem lhs2_1 (i : S1024x1920.Idx) (q : dot_S1024x200_S1920x200_S1024x1920_1_1_0_0_n_n.contr.Idx) : (dot_S1024x200_S1920x200_S1024x1920_1_1_0_0_n_n.lhsIdx i q 1).val = (q ⟨0, by decide⟩).val :=
  dot_S1024x200_S1920x200_S1024x1920_1_1_0_0_n_n.lhsIdx_val_of_single rfl i q
/-- The right operand's index: row `i 1` of the tile, contracted coordinate. -/
theorem rhs2_0 (i : S1024x1920.Idx) (q : dot_S1024x200_S1920x200_S1024x1920_1_1_0_0_n_n.contr.Idx) : (dot_S1024x200_S1920x200_S1024x1920_1_1_0_0_n_n.rhsIdx i q 0).val = (i 1).val := by
  unfold DotDims.rhsIdx
  rw [dif_neg (show ¬(0 : Fin S1920x200.rank) ∈ dot_S1024x200_S1920x200_S1024x1920_1_1_0_0_n_n.rhsBatch by decide), dif_pos (show (0 : Fin S1920x200.rank) ∈ dot_S1024x200_S1920x200_S1024x1920_1_1_0_0_n_n.rhsNonContracting by decide)]
  rfl
theorem rhs2_1 (i : S1024x1920.Idx) (q : dot_S1024x200_S1920x200_S1024x1920_1_1_0_0_n_n.contr.Idx) : (dot_S1024x200_S1920x200_S1024x1920_1_1_0_0_n_n.rhsIdx i q 1).val = (q ⟨0, by decide⟩).val :=
  dot_S1024x200_S1920x200_S1024x1920_1_1_0_0_n_n.rhsIdx_val_of_single rfl i q

/-- The output-block payload at entry (r, q): the row of the carried block against the row of the tile. -/
theorem pay2_apply (xs : FVec Ideal S1024x200 .f32) (x7 : FVec Ideal S1920x200 .bf16) (r : Fin 1024) (q : Fin 1920) :
    k0_pay2 (F := Ideal) xs x7 (ix2 r q) = ∑ k : Fin 200, xs (ix2 r k) * x7 (ix2 q k) := by
  unfold k0_pay2
  simp only [shapeCast_self]
  show FloatOps.matmul dot_S1024x200_S1920x200_S1024x1920_1_1_0_0_n_n none _ _ _ (ix2 r q) = _
  rw [Ideal.matmul_constant_zero_apply, ← Equiv.sum_comp (contrEquiv1 dot_S1024x200_S1920x200_S1024x1920_1_1_0_0_n_n 200 rfl rfl).symm]
  refine Finset.sum_congr rfl fun k _ => ?_
  have hk := contrEquiv1_symm_val dot_S1024x200_S1920x200_S1024x1920_1_1_0_0_n_n 200 rfl rfl k
  have el : dot_S1024x200_S1920x200_S1024x1920_1_1_0_0_n_n.lhsIdx (ix2 r q) ((contrEquiv1 dot_S1024x200_S1920x200_S1024x1920_1_1_0_0_n_n 200 rfl rfl).symm k) = ix2 r k := funext fun a => Fin.ext (by
    match a with
    | ⟨0, _⟩ => exact lhs2_0 _ _
    | ⟨1, _⟩ => exact (lhs2_1 _ _).trans hk)
  have er : dot_S1024x200_S1920x200_S1024x1920_1_1_0_0_n_n.rhsIdx (ix2 r q) ((contrEquiv1 dot_S1024x200_S1920x200_S1024x1920_1_1_0_0_n_n 200 rfl rfl).symm k) = ix2 q k := funext fun a => Fin.ext (by
    match a with
    | ⟨0, _⟩ => exact rhs2_0 _ _
    | ⟨1, _⟩ => exact (rhs2_1 _ _).trans hk)
  rw [el, er]
  rfl

end Cert.KernelIdeal.Body
end
-- ==== Proof.KernelScratch.lean ====
/-
  The decoder kernel's carried row block and output block, point by point. The scratch holds, after every point of
  batch tile I, the decoder row block Y[1024·I + r, k]: the first point of the tile stores it, the fifteen others
  leave it. The output block of point t is the product of that row block with t's tile of static_emb rows.
-/
import proofs.«158429_j18803366822339_2_alg».proof.Proof.KernelBlocks
import proofs.«158429_j18803366822339_2_alg».proof.Proof.KernelPieces
import proofs.«158429_j18803366822339_2_alg».proof.Proof.KernelBody

noncomputable section
open scoped BigOperators
namespace Cert.KernelIdeal.KValue
open Cert.KernelIdeal Cert.KernelIdeal.Gen Idealize.ShloMosaic Idealize.ShloMosaic.TcCoe Idealize.SL.Sem
open Idealize.ShloMosaic.ValueIdx
open Idealize.ShloMosaic.Pipeline (Dat)

section AnyInstance
variable {F : FTy → Type} [FloatOps F]
variable (m : (ℓ : Loc nD τ sig) → Buf (Elt F) ℓ)

/-- The row-block payload of the input blocks of point t. -/
def rowPay (c : Dev nD) (t : Fin cfg0.N) : FVec F S1024x200 .f32 :=
  k0_pay1 (iblk m c 0 t) (iblk m c 1 t) (iblk m c 2 t) (iblk m c 3 t) (iblk m c 4 t) (iblk m c 5 t) (iblk m c 6 t)

/-- After a first column tile: the product of the point's row block with its tile, and that row block. -/
theorem outs_A (c : Dev nD) (t : Fin cfg0.N) (h0 : t.val % 16 = 0) :
    outsAt0 m c t.val t.isLt = (k0_pay2 (rowPay m c t) (iblk m c 7 t), rowPay m c t) := by
  rw [outsAt0_A m c t h0, Pieces.scratch_A, Pieces.out_A]
  rfl

/-- After any other column tile: the product of the carried row block with the tile, and the carried row block. -/
theorem outs_B (c : Dev nD) (t : Fin cfg0.N) (h0 : ¬t.val % 16 = 0) :
    outsAt0 m c t.val t.isLt
      = (k0_pay2 (outsAt0 m c (t.val - 1) (Nat.lt_of_le_of_lt (Nat.sub_le _ _) t.isLt)).2 (iblk m c 7 t),
          (outsAt0 m c (t.val - 1) (Nat.lt_of_le_of_lt (Nat.sub_le _ _) t.isLt)).2) := by
  rw [outsAt0_B m c t h0, Pieces.out_B]
  rfl

end AnyInstance

variable (m : (ℓ : Loc nD τ sig) → Buf (Elt Ideal) ℓ)

/-- The region-entry arrays of one core as the decoder's operands. -/
abbrev Y (c : Dev nD) (b : Fin 4096) (k : Fin 200) : EReal :=
  yRow (V m c main_v40) (V m c main_v47) (V m c main_v54) (V m c main_v57) (V m c main_v60) (V m c main_v63) (V m c main_v64) b k

/-- The decoder row block of batch tile I. -/
def yBlock (c : Dev nD) (I : Fin 4) : Vec Ideal S1024x200 .f32 :=
  fun y => Y m c (rowOf I ⟨(y 0).val, idx2_lt0 y⟩) ⟨(y 1).val, idx2_lt1 y⟩

/-- The row-block payload of a point's input blocks is the decoder row block of the point's batch tile. -/
theorem pay1_blocks (c : Dev nD) (t : Fin cfg0.N) : rowPay m c t = yBlock m c (tileI t) := by
  funext y
  obtain ⟨r, k, rfl⟩ : ∃ (r : Fin 1024) (k : Fin 200), y = ix2 r k := ⟨y 0, y 1, eq_ix2 y⟩
  refine (Body.pay1_apply (iblk m c 0 t) (iblk m c 1 t) (iblk m c 2 t) (iblk m c 3 t) (iblk m c 4 t) (iblk m c 5 t) (iblk m c 6 t) r k).trans ?_
  show max _ 0 = max _ 0
  refine congrArg (fun x : EReal => max x 0) ?_
  refine congrArg₂ (· + ·) (congrArg₂ (· + ·) (congrArg₂ (· + ·) ?_ ?_) ?_) ?_
  · exact Finset.sum_congr rfl fun j _ => congrArg₂ (· * ·) (congrArg Ideal.tanh (iblk0 m c t r j)) (iblk3 m c t j k)
  · exact Finset.sum_congr rfl fun j _ => congrArg₂ (· * ·) (iblk1 m c t r j) (iblk4 m c t j k)
  · exact congrArg₂ (· * ·) (iblk2 m c t r 0) (iblk5 m c t 0 k)
  · exact iblk6 m c t 0 k

/-- THE CARRIED SCRATCH after point t holds the decoder row block of t's batch tile. -/
theorem scratch_eq (c : Dev nD) : ∀ (n : ℕ) (h : n < cfg0.N), (outsAt0 m c n h).2 = yBlock m c (tileI ⟨n, h⟩) := by
  intro n
  induction n with
  | zero =>
    intro h
    rw [outs_A m c ⟨0, h⟩ rfl]
    dsimp only
    exact pay1_blocks m c ⟨0, h⟩
  | succ n ih =>
    intro h
    by_cases h0 : (⟨n + 1, h⟩ : Fin cfg0.N).val % 16 = 0
    · rw [outs_A m c ⟨n + 1, h⟩ h0]
      dsimp only
      exact pay1_blocks m c ⟨n + 1, h⟩
    · rw [outs_B m c ⟨n + 1, h⟩ h0]
      dsimp only
      have e : (outsAt0 m c (n + 1 - 1) (Nat.lt_of_le_of_lt (Nat.sub_le _ _) h)).2 = (outsAt0 m c n (Nat.lt_of_succ_lt h)).2 := rfl
      rw [e, ih]
      refine congrArg (yBlock m c) (Fin.ext ?_)
      show n / 16 = (n + 1) / 16
      have h0' : ¬(n + 1) % 16 = 0 := h0
      omega

/-- THE OUTPUT BLOCK after point t is the product of that row block with t's tile of static_emb rows. -/
theorem out_eq (c : Dev nD) (t : Fin cfg0.N) :
    (outsAt0 m c t.val t.isLt).1 = k0_pay2 (F := Ideal) (yBlock m c (tileI t)) (iblk m c 7 t) := by
  by_cases h0 : t.val % 16 = 0
  · rw [outs_A m c t h0]
    dsimp only
    rw [pay1_blocks]
  · rw [outs_B m c t h0]
    dsimp only
    have hN : cfg0.N = 64 := N_0
    have ht := t.isLt
    rw [scratch_eq m c (t.val - 1) (Nat.lt_of_le_of_lt (Nat.sub_le _ _) t.isLt)]
    refine congrArg (fun I => k0_pay2 (F := Ideal) (yBlock m c I) (iblk m c 7 t)) (Fin.ext ?_)
    show (t.val - 1) / 16 = t.val / 16
    omega

end Cert.KernelIdeal.KValue
end
-- ==== Proof.KernelValue.lean ====
/-
  The decoder kernel's result array as one function of the arrays the region finds: the block a point writes back
  is that point's block of out[b, n] = ∑_k Y[b, k] · sem[n, k] (the last column tile cut at column 30000), the 64
  blocks cover the array, so the array ends holding that function; and the run restated with it.
-/
import proofs.«158429_j18803366822339_2_alg».proof.Proof.Gen.KernelIdeal.Value
import proofs.«158429_j18803366822339_2_alg».proof.Proof.KernelScratch

noncomputable section
open scoped BigOperators
namespace Cert.KernelIdeal.KValue
open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array's function over one core's region-entry arrays. -/
abbrev G (c : Dev nD) : S4096x30000.Idx → EReal :=
  outFn (V m c main_v40) (V m c main_v47) (V m c main_v54) (V m c main_v57) (V m c main_v60) (V m c main_v63) (V m c main_v64) (V m c main_v66)

/-- WHAT POINT t WRITES BACK is block t of that function. -/
theorem flushed_eq (c : Dev nD) (t : Fin cfg0.N) :
    (dats m 0 c).flushed 8 t = ((cfg0.win 8).blk t).view.read (Elt Ideal) (G m c) := by
  rw [Value.flushed8, out_eq]
  obtain ⟨-, -, -, -, -, -, -, -, -, -, -, -, -, -, -, -, e80, e81⟩ := idx_facts t
  obtain ⟨x0, x1⟩ := xsize_facts t
  funext y
  have hy0 : (y 0).val < 1024 := lt_of_lt_of_eq (y 0).isLt x0
  have hy1 : (y 1).val < 1920 := by
    have h := lt_of_lt_of_eq (y 1).isLt x1
    split at h <;> omega
  have hN : cfg0.N = 64 := N_0
  have ht := t.isLt
  have he0 : ((((cfg0.win 8).blk t).view.emb y) 0).val = t.val / 16 * 1024 + (y 0).val := by
    show win0_8.index t (0 : Fin 2) * 1024 + 1 * (y 0).val = _
    rw [e80]; omega
  have he1 : ((((cfg0.win 8).blk t).view.emb y) 1).val = t.val % 16 * 1920 + (y 1).val := by
    show win0_8.index t (1 : Fin 2) * 1920 + 1 * (y 1).val = _
    rw [e81]; omega
  show k0_pay2 (F := Ideal) (yBlock m c (tileI t)) (iblk m c 7 t) ((cfg0.win 8).xinj (grid0.coords t) y)
    = G m c (((cfg0.win 8).blk t).view.emb y)
  have hx : (cfg0.win 8).xinj (grid0.coords t) y = ix2 (⟨(y 0).val, hy0⟩ : Fin 1024) (⟨(y 1).val, hy1⟩ : Fin 1920) :=
    funext fun a => Fin.ext (by match a with | ⟨0, _⟩ => rfl | ⟨1, _⟩ => rfl)
  rw [hx]
  refine (Body.pay2_apply (yBlock m c (tileI t)) (iblk m c 7 t) ⟨(y 0).val, hy0⟩ ⟨(y 1).val, hy1⟩).trans ?_
  show _ = ∑ k : Fin 200, _
  refine Finset.sum_congr rfl fun k _ => ?_
  refine congrArg₂ (· * ·) ?_ ?_
  · show Y m c _ _ = Y m c _ _
    refine congrArg₂ (Y m c) (Fin.ext ?_) (Fin.ext rfl)
    show t.val / 16 * 1024 + (y 0).val = ((((cfg0.win 8).blk t).view.emb y) 0).val
    exact he0.symm
  · refine (iblk7 m c t ⟨(y 1).val, hy1⟩ k).trans ?_
    refine congrArg (V m c main_v66 : S30720x200.Idx → EReal) (congrArg (fun n : Fin 30720 => ix2 n k) (Fin.ext ?_))
    show t.val % 16 * 1920 + (y 1).val = ((((cfg0.win 8).blk t).view.emb y) 1).val
    exact he1.symm

/-- Every index of the result array lies in the block of the point with its batch tile and column tile. -/
theorem cover (i : S4096x30000.Idx) :
    ∃ t : Fin cfg0.N, (cfg0.win 8).flush t = true ∧ i ∈ ((cfg0.win 8).blk t).view.set := by
  have hN : cfg0.N = 64 := N_0
  have hi0 : (i 0).val < 4096 := idx2_lt0 i
  have hi1 : (i 1).val < 30000 := idx2_lt1 i
  let t : Fin cfg0.N := ⟨(i 0).val / 1024 * 16 + (i 1).val / 1920, by omega⟩
  have htv : t.val = (i 0).val / 1024 * 16 + (i 1).val / 1920 := rfl
  obtain ⟨-, -, -, -, -, -, -, -, -, -, -, -, -, -, -, -, e80, e81⟩ := idx_facts t
  obtain ⟨x0, x1⟩ := xsize_facts t
  refine ⟨t, flush0_8 t, ?_⟩
  show i ∈ ((View.whole main_v67).slice (win0_8.rect t)).set
  rw [View.set_slice_whole, Rect.mem_set_unit]
  intro a
  match a with
  | ⟨0, _⟩ =>
    show win0_8.index t (0 : Fin 2) * 1024 ≤ (i 0).val ∧ (i 0).val < win0_8.index t (0 : Fin 2) * 1024 + win0_8.xsize (grid0.coords t) (0 : Fin 2)
    rw [e80, x0, htv]; omega
  | ⟨1, _⟩ =>
    show win0_8.index t (1 : Fin 2) * 1920 ≤ (i 1).val ∧ (i 1).val < win0_8.index t (1 : Fin 2) * 1920 + win0_8.xsize (grid0.coords t) (1 : Fin 2)
    rw [e81, x1, htv]
    split <;> omega

/-- THE RESULT ARRAY after the run. -/
theorem final (c : Dev nD) : (dats m 0 c).arrAt 8 cfg0.N = G m c :=
  (dats m 0 c).arrAt_eq_of_cover 8 (G m c) (fun t _ => flushed_eq m c t) (cover)

/-- The kernel's run with its result array at that function, the arguments unchanged. -/
theorem run : θ_run defs (onTc (τ := τ) (main (F := Ideal))) ⟨m, fun _ => 0, ρ⟩ fun r => ∀ c : Dev nD,
      r.2.mem ((c : Thread nD τ).loc main_v67) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.KValue
end
-- ==== Proof.Prefix.lean ====
/-
  The host prefix shared by the two programs, as four closed functions of the argument arrays,
  read at the ideal instance (a float an extended real). Each definition is the composition,
  operation by operation and in the program's order, of the host operations that compute the
  value named in its comment; nothing here is proved about them, and later modules treat them
  as opaque functions that both programs apply to equal arguments.
-/
import proofs.«158429_j18803366822339_2_alg».proof.ReferenceIdeal
import Idealize.ShloMosaic.PureOps.Ideal

noncomputable section

namespace Cert.Prefix

open Idealize.ShloMosaic Cert.ReferenceIdeal
open Cert.ReferenceIdeal.Facts₀ Cert.ReferenceIdeal.Facts

variable [Cert.ReferenceIdeal.Facts]

/-- The static entity embedding: rows of the concatenated entity and attribute tables gathered at
    the edge sources (a negative index wrapped by the table's length), scaled by the relation
    weight gathered at the edge types, summed into the rows named by the edge targets, scaled by
    the per-row norm, passed through the leaky rectifier `x ↦ if x ≥ 0 then x else c * x`, and cut
    to the first 30000 rows. -/
def staticEmb (a0 : FVec Ideal S30000x200 .f32) (a1 : FVec Ideal S10000x200 .f32) (a4 : FVec Ideal S10x200 .f32)
    (a7 : FVec Ideal S40000x1 .f32) (a8 a9 a10 : (⟨S600000, .i32⟩ : BufTy).Contents (Elt Ideal)) : FVec Ideal S30000x200 .f32 :=
  (((extractStridedSlice S30000x200 ![0, 0] · slices_S40000x200_S30000x200_0_0) : (⟨S40000x200, .f32⟩ : BufTy).Contents (Elt Ideal) → (⟨S30000x200, .f32⟩ : BufTy).Contents (Elt Ideal)) ((select : (⟨S40000x200, .i1⟩ : BufTy).Contents (Elt Ideal) → (⟨S40000x200, .f32⟩ : BufTy).Contents (Elt Ideal) → (⟨S40000x200, .f32⟩ : BufTy).Contents (Elt Ideal) → (⟨S40000x200, .f32⟩ : BufTy).Contents (Elt Ideal)) ((cmpf (F := Ideal) (φ := .f32) .oge : (⟨S40000x200, .f32⟩ : BufTy).Contents (Elt Ideal) → (⟨S40000x200, .f32⟩ : BufTy).Contents (Elt Ideal) → (⟨S40000x200, .i1⟩ : BufTy).Contents (Elt Ideal)) ((mulf (F := Ideal) (φ := .f32) : (⟨S40000x200, .f32⟩ : BufTy).Contents (Elt Ideal) → (⟨S40000x200, .f32⟩ : BufTy).Contents (Elt Ideal) → (⟨S40000x200, .f32⟩ : BufTy).Contents (Elt Ideal)) (((fun x i u => Host.scatterAdd (F := Ideal) (φ := .f32) scatter_S40000x200_S600000x1_S600000x200_1_0_0_1 x i u) : (⟨S40000x200, .f32⟩ : BufTy).Contents (Elt Ideal) → (⟨S600000x1, .i32⟩ : BufTy).Contents (Elt Ideal) → (⟨S600000x200, .f32⟩ : BufTy).Contents (Elt Ideal) → (⟨S40000x200, .f32⟩ : BufTy).Contents (Elt Ideal)) ((broadcastInDim S40000x200 ![] bcast_S_S40000x200 : (⟨S_, .f32⟩ : BufTy).Contents (Elt Ideal) → (⟨S40000x200, .f32⟩ : BufTy).Contents (Elt Ideal)) (constant (F := Ideal) S_ .f32 0x00000000#32 : (⟨S_, .f32⟩ : BufTy).Contents (Elt Ideal))) ((broadcastInDim S600000x1 ![0] bcast_S600000_S600000x1_0 : (⟨S600000, .i32⟩ : BufTy).Contents (Elt Ideal) → (⟨S600000x1, .i32⟩ : BufTy).Contents (Elt Ideal)) a9) ((mulf (F := Ideal) (φ := .f32) : (⟨S600000x200, .f32⟩ : BufTy).Contents (Elt Ideal) → (⟨S600000x200, .f32⟩ : BufTy).Contents (Elt Ideal) → (⟨S600000x200, .f32⟩ : BufTy).Contents (Elt Ideal)) (((fun x i => Host.gather gather_S40000x200_S600000x1_S600000x200_1_0_n_n_0_1_1200 x i) : (⟨S40000x200, .f32⟩ : BufTy).Contents (Elt Ideal) → (⟨S600000x1, .i32⟩ : BufTy).Contents (Elt Ideal) → (⟨S600000x200, .f32⟩ : BufTy).Contents (Elt Ideal)) (((fun a b => concatenate S40000x200 0 [⟨S30000x200, a⟩, ⟨S10000x200, b⟩] concatenates_S30000x200_S10000x200_S40000x200_d0) : (⟨S30000x200, .f32⟩ : BufTy).Contents (Elt Ideal) → (⟨S10000x200, .f32⟩ : BufTy).Contents (Elt Ideal) → (⟨S40000x200, .f32⟩ : BufTy).Contents (Elt Ideal)) a0 a1) ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) a8 ((broadcastInDim S600000 ![] bcast_S_S600000 : (⟨S_, .i32⟩ : BufTy).Contents (Elt Ideal) → (⟨S600000, .i32⟩ : BufTy).Contents (Elt Ideal)) (constantI S_ 32 0#32 : (⟨S_, .i32⟩ : BufTy).Contents (Elt Ideal)))) ((addi : (⟨S600000, .i32⟩ : BufTy).Contents (Elt Ideal) → (⟨S600000, .i32⟩ : BufTy).Contents (Elt Ideal) → (⟨S600000, .i32⟩ : BufTy).Contents (Elt Ideal)) a8 ((broadcastInDim S600000 ![] bcast_S_S600000 : (⟨S_, .i32⟩ : BufTy).Contents (Elt Ideal) → (⟨S600000, .i32⟩ : BufTy).Contents (Elt Ideal)) (constantI S_ 32 40000#32 : (⟨S_, .i32⟩ : BufTy).Contents (Elt Ideal)))) a8))) (((fun x i => Host.gather gather_S10x200_S600000x1_S600000x200_1_0_n_n_0_1_1200 x i) : (⟨S10x200, .f32⟩ : BufTy).Contents (Elt Ideal) → (⟨S600000x1, .i32⟩ : BufTy).Contents (Elt Ideal) → (⟨S600000x200, .f32⟩ : BufTy).Contents (Elt Ideal)) a4 ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) a10 ((broadcastInDim S600000 ![] bcast_S_S600000 : (⟨S_, .i32⟩ : BufTy).Contents (Elt Ideal) → (⟨S600000, .i32⟩ : BufTy).Contents (Elt Ideal)) (constantI S_ 32 0#32 : (⟨S_, .i32⟩ : BufTy).Contents (Elt Ideal)))) ((addi : (⟨S600000, .i32⟩ : BufTy).Contents (Elt Ideal) → (⟨S600000, .i32⟩ : BufTy).Contents (Elt Ideal) → (⟨S600000, .i32⟩ : BufTy).Contents (Elt Ideal)) a10 ((broadcastInDim S600000 ![] bcast_S_S600000 : (⟨S_, .i32⟩ : BufTy).Contents (Elt Ideal) → (⟨S600000, .i32⟩ : BufTy).Contents (Elt Ideal)) (constantI S_ 32 10#32 : (⟨S_, .i32⟩ : BufTy).Contents (Elt Ideal)))) a10))))) ((broadcastInDim S40000x200 ![0, 1] bcast_S40000x1_S40000x200_0_1 : (⟨S40000x1, .f32⟩ : BufTy).Contents (Elt Ideal) → (⟨S40000x200, .f32⟩ : BufTy).Contents (Elt Ideal)) a7)) ((broadcastInDim S40000x200 ![] bcast_S_S40000x200 : (⟨S_, .f32⟩ : BufTy).Contents (Elt Ideal) → (⟨S40000x200, .f32⟩ : BufTy).Contents (Elt Ideal)) (constant (F := Ideal) S_ .f32 0x00000000#32 : (⟨S_, .f32⟩ : BufTy).Contents (Elt Ideal)))) ((mulf (F := Ideal) (φ := .f32) : (⟨S40000x200, .f32⟩ : BufTy).Contents (Elt Ideal) → (⟨S40000x200, .f32⟩ : BufTy).Contents (Elt Ideal) → (⟨S40000x200, .f32⟩ : BufTy).Contents (Elt Ideal)) (((fun x i u => Host.scatterAdd (F := Ideal) (φ := .f32) scatter_S40000x200_S600000x1_S600000x200_1_0_0_1 x i u) : (⟨S40000x200, .f32⟩ : BufTy).Contents (Elt Ideal) → (⟨S600000x1, .i32⟩ : BufTy).Contents (Elt Ideal) → (⟨S600000x200, .f32⟩ : BufTy).Contents (Elt Ideal) → (⟨S40000x200, .f32⟩ : BufTy).Contents (Elt Ideal)) ((broadcastInDim S40000x200 ![] bcast_S_S40000x200 : (⟨S_, .f32⟩ : BufTy).Contents (Elt Ideal) → (⟨S40000x200, .f32⟩ : BufTy).Contents (Elt Ideal)) (constant (F := Ideal) S_ .f32 0x00000000#32 : (⟨S_, .f32⟩ : BufTy).Contents (Elt Ideal))) ((broadcastInDim S600000x1 ![0] bcast_S600000_S600000x1_0 : (⟨S600000, .i32⟩ : BufTy).Contents (Elt Ideal) → (⟨S600000x1, .i32⟩ : BufTy).Contents (Elt Ideal)) a9) ((mulf (F := Ideal) (φ := .f32) : (⟨S600000x200, .f32⟩ : BufTy).Contents (Elt Ideal) → (⟨S600000x200, .f32⟩ : BufTy).Contents (Elt Ideal) → (⟨S600000x200, .f32⟩ : BufTy).Contents (Elt Ideal)) (((fun x i => Host.gather gather_S40000x200_S600000x1_S600000x200_1_0_n_n_0_1_1200 x i) : (⟨S40000x200, .f32⟩ : BufTy).Contents (Elt Ideal) → (⟨S600000x1, .i32⟩ : BufTy).Contents (Elt Ideal) → (⟨S600000x200, .f32⟩ : BufTy).Contents (Elt Ideal)) (((fun a b => concatenate S40000x200 0 [⟨S30000x200, a⟩, ⟨S10000x200, b⟩] concatenates_S30000x200_S10000x200_S40000x200_d0) : (⟨S30000x200, .f32⟩ : BufTy).Contents (Elt Ideal) → (⟨S10000x200, .f32⟩ : BufTy).Contents (Elt Ideal) → (⟨S40000x200, .f32⟩ : BufTy).Contents (Elt Ideal)) a0 a1) ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) a8 ((broadcastInDim S600000 ![] bcast_S_S600000 : (⟨S_, .i32⟩ : BufTy).Contents (Elt Ideal) → (⟨S600000, .i32⟩ : BufTy).Contents (Elt Ideal)) (constantI S_ 32 0#32 : (⟨S_, .i32⟩ : BufTy).Contents (Elt Ideal)))) ((addi : (⟨S600000, .i32⟩ : BufTy).Contents (Elt Ideal) → (⟨S600000, .i32⟩ : BufTy).Contents (Elt Ideal) → (⟨S600000, .i32⟩ : BufTy).Contents (Elt Ideal)) a8 ((broadcastInDim S600000 ![] bcast_S_S600000 : (⟨S_, .i32⟩ : BufTy).Contents (Elt Ideal) → (⟨S600000, .i32⟩ : BufTy).Contents (Elt Ideal)) (constantI S_ 32 40000#32 : (⟨S_, .i32⟩ : BufTy).Contents (Elt Ideal)))) a8))) (((fun x i => Host.gather gather_S10x200_S600000x1_S600000x200_1_0_n_n_0_1_1200 x i) : (⟨S10x200, .f32⟩ : BufTy).Contents (Elt Ideal) → (⟨S600000x1, .i32⟩ : BufTy).Contents (Elt Ideal) → (⟨S600000x200, .f32⟩ : BufTy).Contents (Elt Ideal)) a4 ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) a10 ((broadcastInDim S600000 ![] bcast_S_S600000 : (⟨S_, .i32⟩ : BufTy).Contents (Elt Ideal) → (⟨S600000, .i32⟩ : BufTy).Contents (Elt Ideal)) (constantI S_ 32 0#32 : (⟨S_, .i32⟩ : BufTy).Contents (Elt Ideal)))) ((addi : (⟨S600000, .i32⟩ : BufTy).Contents (Elt Ideal) → (⟨S600000, .i32⟩ : BufTy).Contents (Elt Ideal) → (⟨S600000, .i32⟩ : BufTy).Contents (Elt Ideal)) a10 ((broadcastInDim S600000 ![] bcast_S_S600000 : (⟨S_, .i32⟩ : BufTy).Contents (Elt Ideal) → (⟨S600000, .i32⟩ : BufTy).Contents (Elt Ideal)) (constantI S_ 32 10#32 : (⟨S_, .i32⟩ : BufTy).Contents (Elt Ideal)))) a10))))) ((broadcastInDim S40000x200 ![0, 1] bcast_S40000x1_S40000x200_0_1 : (⟨S40000x1, .f32⟩ : BufTy).Contents (Elt Ideal) → (⟨S40000x200, .f32⟩ : BufTy).Contents (Elt Ideal)) a7)) ((mulf (F := Ideal) (φ := .f32) : (⟨S40000x200, .f32⟩ : BufTy).Contents (Elt Ideal) → (⟨S40000x200, .f32⟩ : BufTy).Contents (Elt Ideal) → (⟨S40000x200, .f32⟩ : BufTy).Contents (Elt Ideal)) ((broadcastInDim S40000x200 ![] bcast_S_S40000x200 : (⟨S_, .f32⟩ : BufTy).Contents (Elt Ideal) → (⟨S40000x200, .f32⟩ : BufTy).Contents (Elt Ideal)) (constant (F := Ideal) S_ .f32 0x3E6AAAAB#32 : (⟨S_, .f32⟩ : BufTy).Contents (Elt Ideal))) ((mulf (F := Ideal) (φ := .f32) : (⟨S40000x200, .f32⟩ : BufTy).Contents (Elt Ideal) → (⟨S40000x200, .f32⟩ : BufTy).Contents (Elt Ideal) → (⟨S40000x200, .f32⟩ : BufTy).Contents (Elt Ideal)) (((fun x i u => Host.scatterAdd (F := Ideal) (φ := .f32) scatter_S40000x200_S600000x1_S600000x200_1_0_0_1 x i u) : (⟨S40000x200, .f32⟩ : BufTy).Contents (Elt Ideal) → (⟨S600000x1, .i32⟩ : BufTy).Contents (Elt Ideal) → (⟨S600000x200, .f32⟩ : BufTy).Contents (Elt Ideal) → (⟨S40000x200, .f32⟩ : BufTy).Contents (Elt Ideal)) ((broadcastInDim S40000x200 ![] bcast_S_S40000x200 : (⟨S_, .f32⟩ : BufTy).Contents (Elt Ideal) → (⟨S40000x200, .f32⟩ : BufTy).Contents (Elt Ideal)) (constant (F := Ideal) S_ .f32 0x00000000#32 : (⟨S_, .f32⟩ : BufTy).Contents (Elt Ideal))) ((broadcastInDim S600000x1 ![0] bcast_S600000_S600000x1_0 : (⟨S600000, .i32⟩ : BufTy).Contents (Elt Ideal) → (⟨S600000x1, .i32⟩ : BufTy).Contents (Elt Ideal)) a9) ((mulf (F := Ideal) (φ := .f32) : (⟨S600000x200, .f32⟩ : BufTy).Contents (Elt Ideal) → (⟨S600000x200, .f32⟩ : BufTy).Contents (Elt Ideal) → (⟨S600000x200, .f32⟩ : BufTy).Contents (Elt Ideal)) (((fun x i => Host.gather gather_S40000x200_S600000x1_S600000x200_1_0_n_n_0_1_1200 x i) : (⟨S40000x200, .f32⟩ : BufTy).Contents (Elt Ideal) → (⟨S600000x1, .i32⟩ : BufTy).Contents (Elt Ideal) → (⟨S600000x200, .f32⟩ : BufTy).Contents (Elt Ideal)) (((fun a b => concatenate S40000x200 0 [⟨S30000x200, a⟩, ⟨S10000x200, b⟩] concatenates_S30000x200_S10000x200_S40000x200_d0) : (⟨S30000x200, .f32⟩ : BufTy).Contents (Elt Ideal) → (⟨S10000x200, .f32⟩ : BufTy).Contents (Elt Ideal) → (⟨S40000x200, .f32⟩ : BufTy).Contents (Elt Ideal)) a0 a1) ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) a8 ((broadcastInDim S600000 ![] bcast_S_S600000 : (⟨S_, .i32⟩ : BufTy).Contents (Elt Ideal) → (⟨S600000, .i32⟩ : BufTy).Contents (Elt Ideal)) (constantI S_ 32 0#32 : (⟨S_, .i32⟩ : BufTy).Contents (Elt Ideal)))) ((addi : (⟨S600000, .i32⟩ : BufTy).Contents (Elt Ideal) → (⟨S600000, .i32⟩ : BufTy).Contents (Elt Ideal) → (⟨S600000, .i32⟩ : BufTy).Contents (Elt Ideal)) a8 ((broadcastInDim S600000 ![] bcast_S_S600000 : (⟨S_, .i32⟩ : BufTy).Contents (Elt Ideal) → (⟨S600000, .i32⟩ : BufTy).Contents (Elt Ideal)) (constantI S_ 32 40000#32 : (⟨S_, .i32⟩ : BufTy).Contents (Elt Ideal)))) a8))) (((fun x i => Host.gather gather_S10x200_S600000x1_S600000x200_1_0_n_n_0_1_1200 x i) : (⟨S10x200, .f32⟩ : BufTy).Contents (Elt Ideal) → (⟨S600000x1, .i32⟩ : BufTy).Contents (Elt Ideal) → (⟨S600000x200, .f32⟩ : BufTy).Contents (Elt Ideal)) a4 ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) a10 ((broadcastInDim S600000 ![] bcast_S_S600000 : (⟨S_, .i32⟩ : BufTy).Contents (Elt Ideal) → (⟨S600000, .i32⟩ : BufTy).Contents (Elt Ideal)) (constantI S_ 32 0#32 : (⟨S_, .i32⟩ : BufTy).Contents (Elt Ideal)))) ((addi : (⟨S600000, .i32⟩ : BufTy).Contents (Elt Ideal) → (⟨S600000, .i32⟩ : BufTy).Contents (Elt Ideal) → (⟨S600000, .i32⟩ : BufTy).Contents (Elt Ideal)) a10 ((broadcastInDim S600000 ![] bcast_S_S600000 : (⟨S_, .i32⟩ : BufTy).Contents (Elt Ideal) → (⟨S600000, .i32⟩ : BufTy).Contents (Elt Ideal)) (constantI S_ 32 10#32 : (⟨S_, .i32⟩ : BufTy).Contents (Elt Ideal)))) a10))))) ((broadcastInDim S40000x200 ![0, 1] bcast_S40000x1_S40000x200_0_1 : (⟨S40000x1, .f32⟩ : BufTy).Contents (Elt Ideal) → (⟨S40000x200, .f32⟩ : BufTy).Contents (Elt Ideal)) a7)))))

/-- The rows of the static embedding at column 0 of the batch (a negative index wrapped by 30000). -/
def entOf (se : FVec Ideal S30000x200 .f32) (a11 : (⟨S4096x4, .i32⟩ : BufTy).Contents (Elt Ideal)) : FVec Ideal S4096x200 .f32 :=
  (((fun x i => Host.gather gather_S30000x200_S4096x1_S4096x200_1_0_n_n_0_1_1200 x i) : (⟨S30000x200, .f32⟩ : BufTy).Contents (Elt Ideal) → (⟨S4096x1, .i32⟩ : BufTy).Contents (Elt Ideal) → (⟨S4096x200, .f32⟩ : BufTy).Contents (Elt Ideal)) se ((broadcastInDim S4096x1 ![0] bcast_S4096_S4096x1_0 : (⟨S4096, .i32⟩ : BufTy).Contents (Elt Ideal) → (⟨S4096x1, .i32⟩ : BufTy).Contents (Elt Ideal)) ((select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) ((cmpi .slt : (⟨S4096, .i32⟩ : BufTy).Contents (Elt Ideal) → (⟨S4096, .i32⟩ : BufTy).Contents (Elt Ideal) → (⟨S4096, .i1⟩ : BufTy).Contents (Elt Ideal)) (shapeCast S4096 (((extractStridedSlice S4096x1 ![0, 0] · slices_S4096x4_S4096x1_0_0) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) (constantI S_ 32 0#32 : (⟨S_, .i32⟩ : BufTy).Contents (Elt Ideal)))) ((addi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 0] · slices_S4096x4_S4096x1_0_0) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) (constantI S_ 32 30000#32 : (⟨S_, .i32⟩ : BufTy).Contents (Elt Ideal)))) (shapeCast S4096 (((extractStridedSlice S4096x1 ![0, 0] · slices_S4096x4_S4096x1_0_0) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)))))

/-- The rows of the relation table at column 1 of the batch (a negative index wrapped by 230). -/
def relOf (a2 : FVec Ideal S230x200 .f32) (a11 : (⟨S4096x4, .i32⟩ : BufTy).Contents (Elt Ideal)) : FVec Ideal S4096x200 .f32 :=
  (((fun x i => Host.gather gather_S230x200_S4096x1_S4096x200_1_0_n_n_0_1_1200 x i) : (⟨S230x200, .f32⟩ : BufTy).Contents (Elt Ideal) → (⟨S4096x1, .i32⟩ : BufTy).Contents (Elt Ideal) → (⟨S4096x200, .f32⟩ : BufTy).Contents (Elt Ideal)) a2 ((broadcastInDim S4096x1 ![0] bcast_S4096_S4096x1_0 : (⟨S4096, .i32⟩ : BufTy).Contents (Elt Ideal) → (⟨S4096x1, .i32⟩ : BufTy).Contents (Elt Ideal)) ((select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) ((cmpi .slt : (⟨S4096, .i32⟩ : BufTy).Contents (Elt Ideal) → (⟨S4096, .i32⟩ : BufTy).Contents (Elt Ideal) → (⟨S4096, .i1⟩ : BufTy).Contents (Elt Ideal)) (shapeCast S4096 (((extractStridedSlice S4096x1 ![0, 1] · slices_S4096x4_S4096x1_0_1) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) (constantI S_ 32 0#32 : (⟨S_, .i32⟩ : BufTy).Contents (Elt Ideal)))) ((addi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 1] · slices_S4096x4_S4096x1_0_1) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) (constantI S_ 32 230#32 : (⟨S_, .i32⟩ : BufTy).Contents (Elt Ideal)))) (shapeCast S4096 (((extractStridedSlice S4096x1 ![0, 1] · slices_S4096x4_S4096x1_0_1) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)))))

/-- The rows of the time table at the floor of column 3 of the batch divided by 24 (the truncated
    quotient, less one where the remainder is nonzero and the signs differ; a negative result
    wrapped by 365). -/
def timOf (a3 : FVec Ideal S365x1 .f32) (a11 : (⟨S4096x4, .i32⟩ : BufTy).Contents (Elt Ideal)) : FVec Ideal S4096x1 .f32 :=
  (((fun x i => Host.gather gather_S365x1_S4096x1_S4096x1_1_0_n_n_0_1_11 x i) : (⟨S365x1, .f32⟩ : BufTy).Contents (Elt Ideal) → (⟨S4096x1, .i32⟩ : BufTy).Contents (Elt Ideal) → (⟨S4096x1, .f32⟩ : BufTy).Contents (Elt Ideal)) a3 ((broadcastInDim S4096x1 ![0] bcast_S4096_S4096x1_0 : (⟨S4096, .i32⟩ : BufTy).Contents (Elt Ideal) → (⟨S4096x1, .i32⟩ : BufTy).Contents (Elt Ideal)) ((select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) ((cmpi .slt : (⟨S4096, .i32⟩ : BufTy).Contents (Elt Ideal) → (⟨S4096, .i32⟩ : BufTy).Contents (Elt Ideal) → (⟨S4096, .i1⟩ : BufTy).Contents (Elt Ideal)) ((select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) ((andi : (⟨S4096, .i1⟩ : BufTy).Contents (Elt Ideal) → (⟨S4096, .i1⟩ : BufTy).Contents (Elt Ideal) → (⟨S4096, .i1⟩ : BufTy).Contents (Elt Ideal)) ((cmpi .ne : (⟨S4096, .i32⟩ : BufTy).Contents (Elt Ideal) → (⟨S4096, .i32⟩ : BufTy).Contents (Elt Ideal) → (⟨S4096, .i1⟩ : BufTy).Contents (Elt Ideal)) ((signi : (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal))) ((broadcastInDim S4096 ![] bcast_S_S4096 : (⟨S_, .i32⟩ : BufTy).Contents (Elt Ideal) → (⟨S4096, .i32⟩ : BufTy).Contents (Elt Ideal)) ((signi : (⟨S_, .i32⟩ : BufTy).Contents (Elt Ideal) → (⟨S_, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal)))))) ((cmpi .ne : (⟨S4096, .i32⟩ : BufTy).Contents (Elt Ideal) → (⟨S4096, .i32⟩ : BufTy).Contents (Elt Ideal) → (⟨S4096, .i1⟩ : BufTy).Contents (Elt Ideal)) ((Host.remsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal))))) ((broadcastInDim S4096 ![] bcast_S_S4096 : (⟨S_, .i32⟩ : BufTy).Contents (Elt Ideal) → (⟨S4096, .i32⟩ : BufTy).Contents (Elt Ideal)) (constantI S_ 32 0#32 : (⟨S_, .i32⟩ : BufTy).Contents (Elt Ideal))))) ((subi : (⟨S4096, .i32⟩ : BufTy).Contents (Elt Ideal) → (⟨S4096, .i32⟩ : BufTy).Contents (Elt Ideal) → (⟨S4096, .i32⟩ : BufTy).Contents (Elt Ideal)) ((Host.divsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal))))) ((broadcastInDim S4096 ![] bcast_S_S4096 : (⟨S_, .i32⟩ : BufTy).Contents (Elt Ideal) → (⟨S4096, .i32⟩ : BufTy).Contents (Elt Ideal)) (constantI S_ 32 1#32 : (⟨S_, .i32⟩ : BufTy).Contents (Elt Ideal)))) ((Host.divsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal)))))) ((broadcastInDim S4096 ![] bcast_S_S4096 : (⟨S_, .i32⟩ : BufTy).Contents (Elt Ideal) → (⟨S4096, .i32⟩ : BufTy).Contents (Elt Ideal)) (constantI S_ 32 0#32 : (⟨S_, .i32⟩ : BufTy).Contents (Elt Ideal)))) ((addi : (⟨S4096, .i32⟩ : BufTy).Contents (Elt Ideal) → (⟨S4096, .i32⟩ : BufTy).Contents (Elt Ideal) → (⟨S4096, .i32⟩ : BufTy).Contents (Elt Ideal)) ((select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) ((andi : (⟨S4096, .i1⟩ : BufTy).Contents (Elt Ideal) → (⟨S4096, .i1⟩ : BufTy).Contents (Elt Ideal) → (⟨S4096, .i1⟩ : BufTy).Contents (Elt Ideal)) ((cmpi .ne : (⟨S4096, .i32⟩ : BufTy).Contents (Elt Ideal) → (⟨S4096, .i32⟩ : BufTy).Contents (Elt Ideal) → (⟨S4096, .i1⟩ : BufTy).Contents (Elt Ideal)) ((signi : (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal))) ((broadcastInDim S4096 ![] bcast_S_S4096 : (⟨S_, .i32⟩ : BufTy).Contents (Elt Ideal) → (⟨S4096, .i32⟩ : BufTy).Contents (Elt Ideal)) ((signi : (⟨S_, .i32⟩ : BufTy).Contents (Elt Ideal) → (⟨S_, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal)))))) ((cmpi .ne : (⟨S4096, .i32⟩ : BufTy).Contents (Elt Ideal) → (⟨S4096, .i32⟩ : BufTy).Contents (Elt Ideal) → (⟨S4096, .i1⟩ : BufTy).Contents (Elt Ideal)) ((Host.remsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal))))) ((broadcastInDim S4096 ![] bcast_S_S4096 : (⟨S_, .i32⟩ : BufTy).Contents (Elt Ideal) → (⟨S4096, .i32⟩ : BufTy).Contents (Elt Ideal)) (constantI S_ 32 0#32 : (⟨S_, .i32⟩ : BufTy).Contents (Elt Ideal))))) ((subi : (⟨S4096, .i32⟩ : BufTy).Contents (Elt Ideal) → (⟨S4096, .i32⟩ : BufTy).Contents (Elt Ideal) → (⟨S4096, .i32⟩ : BufTy).Contents (Elt Ideal)) ((Host.divsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal))))) ((broadcastInDim S4096 ![] bcast_S_S4096 : (⟨S_, .i32⟩ : BufTy).Contents (Elt Ideal) → (⟨S4096, .i32⟩ : BufTy).Contents (Elt Ideal)) (constantI S_ 32 1#32 : (⟨S_, .i32⟩ : BufTy).Contents (Elt Ideal)))) ((Host.divsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal)))))) ((broadcastInDim S4096 ![] bcast_S_S4096 : (⟨S_, .i32⟩ : BufTy).Contents (Elt Ideal) → (⟨S4096, .i32⟩ : BufTy).Contents (Elt Ideal)) (constantI S_ 32 365#32 : (⟨S_, .i32⟩ : BufTy).Contents (Elt Ideal)))) ((select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) ((andi : (⟨S4096, .i1⟩ : BufTy).Contents (Elt Ideal) → (⟨S4096, .i1⟩ : BufTy).Contents (Elt Ideal) → (⟨S4096, .i1⟩ : BufTy).Contents (Elt Ideal)) ((cmpi .ne : (⟨S4096, .i32⟩ : BufTy).Contents (Elt Ideal) → (⟨S4096, .i32⟩ : BufTy).Contents (Elt Ideal) → (⟨S4096, .i1⟩ : BufTy).Contents (Elt Ideal)) ((signi : (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal))) ((broadcastInDim S4096 ![] bcast_S_S4096 : (⟨S_, .i32⟩ : BufTy).Contents (Elt Ideal) → (⟨S4096, .i32⟩ : BufTy).Contents (Elt Ideal)) ((signi : (⟨S_, .i32⟩ : BufTy).Contents (Elt Ideal) → (⟨S_, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal)))))) ((cmpi .ne : (⟨S4096, .i32⟩ : BufTy).Contents (Elt Ideal) → (⟨S4096, .i32⟩ : BufTy).Contents (Elt Ideal) → (⟨S4096, .i1⟩ : BufTy).Contents (Elt Ideal)) ((Host.remsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal))))) ((broadcastInDim S4096 ![] bcast_S_S4096 : (⟨S_, .i32⟩ : BufTy).Contents (Elt Ideal) → (⟨S4096, .i32⟩ : BufTy).Contents (Elt Ideal)) (constantI S_ 32 0#32 : (⟨S_, .i32⟩ : BufTy).Contents (Elt Ideal))))) ((subi : (⟨S4096, .i32⟩ : BufTy).Contents (Elt Ideal) → (⟨S4096, .i32⟩ : BufTy).Contents (Elt Ideal) → (⟨S4096, .i32⟩ : BufTy).Contents (Elt Ideal)) ((Host.divsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal))))) ((broadcastInDim S4096 ![] bcast_S_S4096 : (⟨S_, .i32⟩ : BufTy).Contents (Elt Ideal) → (⟨S4096, .i32⟩ : BufTy).Contents (Elt Ideal)) (constantI S_ 32 1#32 : (⟨S_, .i32⟩ : BufTy).Contents (Elt Ideal)))) ((Host.divsi : (⟨S4096, .i32⟩ : BufTy).Contents (Elt Ideal) → (⟨S4096, .i32⟩ : BufTy).Contents (Elt Ideal) → (⟨S4096, .i32⟩ : BufTy).Contents (Elt Ideal)) (shapeCast S4096 (((extractStridedSlice S4096x1 ![0, 3] · slices_S4096x4_S4096x1_0_3) : (⟨S4096x4, .i32⟩ : BufTy).Contents (Elt Ideal) → (⟨S4096x1, .i32⟩ : BufTy).Contents (Elt Ideal)) a11) shapeCasts_S4096x1_S4096 : (⟨S4096, .i32⟩ : BufTy).Contents (Elt Ideal)) ((broadcastInDim S4096 ![] bcast_S_S4096 : (⟨S_, .i32⟩ : BufTy).Contents (Elt Ideal) → (⟨S4096, .i32⟩ : BufTy).Contents (Elt Ideal)) ((id : (⟨S_, .i32⟩ : BufTy).Contents (Elt Ideal) → (⟨S_, .i32⟩ : BufTy).Contents (Elt Ideal)) (constantI S_ 32 24#32 : (⟨S_, .i32⟩ : BufTy).Contents (Elt Ideal)))))))))

end Cert.Prefix

end
-- ==== Proof.KernelHostA.lean ====
import proofs.«158429_j18803366822339_2_alg».proof.Proof.Gen.KernelIdeal.Frame
import proofs.«158429_j18803366822339_2_alg».proof.Proof.Prefix
import Idealize.ShloMosaic.Lib.Pipeline.Value
import Idealize.ShloMosaic.Lib.KernelVsHost
import Idealize.ShloMosaic.Lib.ValueIdx

/-! # The kernel program's host operations before its one region: the weight blocks, the bias, and the
relation and time rows

The decoder weight's three column blocks transposed and the bias as a one-row matrix, each read at an index
of the argument arrays at the ideal instance (a float an extended real, a change of float format the
identity); the gathered relation and time rows as the shared host terms of the two programs. -/

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The first column block of the decoder weight, transposed: entry (j, k) is dec_W[k, j]. -/
theorem V_WeT (j k : Fin 200) :
    (V m c main_v57 : S200x200.Idx → EReal) (ix2 j k)
      = (m ((c : Thread nD τ).loc main_arg5) : S200x401.Idx → EReal) (ix2 k (⟨j.val, by omega⟩ : Fin 401)) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rw [truncf_apply]
  refine (transpose_apply _ _ _ (ix2 j k) (ix2 k j) (fun b => match b with | ⟨0, _⟩ => rfl | ⟨1, _⟩ => rfl)).trans ?_
  exact extractStridedSlice_apply _ _ _ (ix2 k j) (ix2 k (⟨j.val, by omega⟩ : Fin 401))
    (fun a => match a with
      | ⟨0, _⟩ => by show k.val = 0 + k.val; omega
      | ⟨1, _⟩ => by show j.val = 0 + j.val; omega)

/-- The second column block of the decoder weight, transposed: entry (j, k) is dec_W[k, 200 + j]. -/
theorem V_WrT (j k : Fin 200) :
    (V m c main_v60 : S200x200.Idx → EReal) (ix2 j k)
      = (m ((c : Thread nD τ).loc main_arg5) : S200x401.Idx → EReal) (ix2 k (⟨200 + j.val, by omega⟩ : Fin 401)) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rw [truncf_apply]
  refine (transpose_apply _ _ _ (ix2 j k) (ix2 k j) (fun b => match b with | ⟨0, _⟩ => rfl | ⟨1, _⟩ => rfl)).trans ?_
  exact extractStridedSlice_apply _ _ _ (ix2 k j) (ix2 k (⟨200 + j.val, by omega⟩ : Fin 401))
    (fun a => match a with
      | ⟨0, _⟩ => by show k.val = 0 + k.val; omega
      | ⟨1, _⟩ => by show 200 + j.val = 200 + j.val; rfl)

/-- The last column of the decoder weight as a row: entry (0, k) is dec_W[k, 400]. -/
theorem V_wt (k : Fin 200) :
    (V m c main_v63 : S1x200.Idx → EReal) (ix2 (0 : Fin 1) k)
      = (m ((c : Thread nD τ).loc main_arg5) : S200x401.Idx → EReal) (ix2 k (⟨400, by omega⟩ : Fin 401)) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rw [truncf_apply]
  refine (transpose_apply _ _ _ (ix2 (0 : Fin 1) k) (ix2 k (0 : Fin 1)) (fun b => match b with | ⟨0, _⟩ => rfl | ⟨1, _⟩ => rfl)).trans ?_
  exact extractStridedSlice_apply _ _ _ (ix2 k (0 : Fin 1)) (ix2 k (⟨400, by omega⟩ : Fin 401))
    (fun a => match a with
      | ⟨0, _⟩ => by show k.val = 0 + k.val; omega
      | ⟨1, _⟩ => by show 400 = 400 + 0; rfl)

/-- The decoder bias as a one-row matrix: entry (0, k) is dec_b[k]. -/
theorem V_decb (k : Fin 200) :
    (V m c main_v64 : S1x200.Idx → EReal) (ix2 (0 : Fin 1) k)
      = (m ((c : Thread nD τ).loc main_arg6) : S200.Idx → EReal) (ix1 k) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  exact shapeCast_apply _ _ (ix2 (0 : Fin 1) k) (ix1 k)
    (by rw [Shape.rowMajor_val_one, Shape.rowMajor_val_two]; show k.val = 0 * 200 + k.val; omega)

variable [Cert.ReferenceIdeal.Facts]

/-- The relation rows of the batch: the shared host term at the relation table and the batch. -/
theorem V_rel :
    (V m c main_v47 : S4096x200.Idx → EReal)
      = Cert.Prefix.relOf (m ((c : Thread nD τ).loc main_arg2)) (m ((c : Thread nD τ).loc main_arg11)) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-- The time rows of the batch: the shared host term at the time table and the batch. -/
theorem V_tim :
    (V m c main_v54 : S4096x1.Idx → EReal)
      = Cert.Prefix.timOf (m ((c : Thread nD τ).loc main_arg3)) (m ((c : Thread nD τ).loc main_arg11)) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

end Cert.KernelIdeal.HostValue

end
-- ==== Proof.KernelHostSe.lean ====
import proofs.«158429_j18803366822339_2_alg».proof.Proof.KernelHostA

/-! # The static entity embedding before the region, as the shared host term -/

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

variable [Cert.ReferenceIdeal.Facts]

/-- The static entity embedding, as the host operations before the region leave it: the shared host
    term at the argument arrays. -/
theorem V_se :
    (V m c main_v26 : S30000x200.Idx → EReal)
      = (Cert.Prefix.staticEmb (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10))) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.toBuf, StableHlo.TRef.ofBuf, cast_eq]
  rfl

end Cert.KernelIdeal.HostValue

end
-- ==== Proof.KernelHostEnt.lean ====
import proofs.«158429_j18803366822339_2_alg».proof.Proof.KernelHostSe

/-! # The gathered entity rows before the region, as the shared host term -/

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

variable [Cert.ReferenceIdeal.Facts]

/-- The entity rows of the batch: the shared host term at the static embedding and the batch. -/
theorem V_ent :
    (V m c main_v40 : S4096x200.Idx → EReal)
      = Cert.Prefix.entOf (Cert.Prefix.staticEmb (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10))) (m ((c : Thread nD τ).loc main_arg11)) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.toBuf, StableHlo.TRef.ofBuf, cast_eq]
  rfl

end Cert.KernelIdeal.HostValue

end
-- ==== Proof.KernelHostSem.lean ====
import proofs.«158429_j18803366822339_2_alg».proof.Proof.KernelHostEnt

/-! # The padded entity table before the region, read inside the unpadded rows -/

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

variable [Cert.ReferenceIdeal.Facts]

/-- The padded, format-changed entity table read inside the unpadded rows: row n < 30000, column k is
    the static embedding there. -/
theorem V_sem (n : Fin 30720) (k : Fin 200) (hn : n.val < 30000) :
    (V m c main_v66 : S30720x200.Idx → EReal) (ix2 n k)
      = (Cert.Prefix.staticEmb (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10))) (ix2 (⟨n.val, hn⟩ : Fin 30000) k) := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.toBuf, StableHlo.TRef.ofBuf, cast_eq]
  refine (pad_apply_of_inside _ _ _ _ _ _ _ (ix2 n k) (ix2 (⟨n.val, hn⟩ : Fin 30000) k)
    (fun a => match a with
      | ⟨0, _⟩ => by show n.val = 0 + n.val * (0 + 1); omega
      | ⟨1, _⟩ => by show k.val = 0 + k.val * (0 + 1); omega)).trans ?_
  rw [truncf_apply]
  rfl

end Cert.KernelIdeal.HostValue

end
-- ==== Proof.KernelHost.lean ====
import proofs.«158429_j18803366822339_2_alg».proof.Proof.KernelHostSem

/-! # The kernel program's host operations before its one region, read as functions of the arguments

The region's eight input windows stage buffers that host operations wrote. The modules imported here read
each, at the ideal instance (a float an extended real, a change of float format the identity), as a function
of the argument arrays: the three column blocks of the decoder weight transposed, the bias as a one-row
matrix, and the gathered embeddings and the padded entity table as the shared host terms of the two
programs. -/
-- ==== Proof.RefOps.lean ====
/-
  The reference program's run, read back. @main is a straight line of ninety-seven host
  operations once the three outlined functions (the select of `where`, the seventeen operations of
  the floor division with its own select, the three of the rectifier) are unfolded at their calls;
  every weakly fair execution of it terminates with each buffer at the fold of the operations'
  results over the launch contents. The result buffer's fold is the decoder `decode` applied to
  the shared host prefix of the arguments, and no operation writes an argument buffer.
-/
import proofs.«158429_j18803366822339_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Program

variable {F : FTy → Type} [FloatOps F]

/-- @main's ninety-seven operations in order, the calls unfolded over their buffer records. -/
abbrev ops : List (HloOp τ sig (Elt F)) :=
  [
    binary main_arg0 main_arg1 main_v0 ((fun a b => concatenate S40000x200 0 [⟨S30000x200, a⟩, ⟨S10000x200, b⟩] concatenates_S30000x200_S10000x200_S40000x200_d0) : (⟨S30000x200, .f32⟩ : BufTy).Contents (Elt F) → (⟨S10000x200, .f32⟩ : BufTy).Contents (Elt F) → (⟨S40000x200, .f32⟩ : BufTy).Contents (Elt F)),
    nullary main_c (constantI S_ 32 0#32),
    unary main_c main_v1 (broadcastInDim S600000 ![] bcast_S_S600000 : (⟨S_, .i32⟩ : BufTy).Contents (Elt F) → (⟨S600000, .i32⟩ : BufTy).Contents (Elt F)),
    binary main_arg8 main_v1 main_v2 (cmpi .slt : (⟨S600000, .i32⟩ : BufTy).Contents (Elt F) → (⟨S600000, .i32⟩ : BufTy).Contents (Elt F) → (⟨S600000, .i1⟩ : BufTy).Contents (Elt F)),
    nullary main_c_0 (constantI S_ 32 40000#32),
    unary main_c_0 main_v3 (broadcastInDim S600000 ![] bcast_S_S600000 : (⟨S_, .i32⟩ : BufTy).Contents (Elt F) → (⟨S600000, .i32⟩ : BufTy).Contents (Elt F)),
    binary main_arg8 main_v3 main_v4 (addi : (⟨S600000, .i32⟩ : BufTy).Contents (Elt F) → (⟨S600000, .i32⟩ : BufTy).Contents (Elt F) → (⟨S600000, .i32⟩ : BufTy).Contents (Elt F)),
    ternary main_v2 main_v4 main_arg8 main_v5 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v5 main_v6 (broadcastInDim S600000x1 ![0] bcast_S600000_S600000x1_0 : (⟨S600000, .i32⟩ : BufTy).Contents (Elt F) → (⟨S600000x1, .i32⟩ : BufTy).Contents (Elt F)),
    binary main_v0 main_v6 main_v7 ((fun x i => Host.gather gather_S40000x200_S600000x1_S600000x200_1_0_n_n_0_1_1200 x i) : (⟨S40000x200, .f32⟩ : BufTy).Contents (Elt F) → (⟨S600000x1, .i32⟩ : BufTy).Contents (Elt F) → (⟨S600000x200, .f32⟩ : BufTy).Contents (Elt F)),
    nullary main_c_1 (constantI S_ 32 0#32),
    unary main_c_1 main_v8 (broadcastInDim S600000 ![] bcast_S_S600000 : (⟨S_, .i32⟩ : BufTy).Contents (Elt F) → (⟨S600000, .i32⟩ : BufTy).Contents (Elt F)),
    binary main_arg10 main_v8 main_v9 (cmpi .slt : (⟨S600000, .i32⟩ : BufTy).Contents (Elt F) → (⟨S600000, .i32⟩ : BufTy).Contents (Elt F) → (⟨S600000, .i1⟩ : BufTy).Contents (Elt F)),
    nullary main_c_2 (constantI S_ 32 10#32),
    unary main_c_2 main_v10 (broadcastInDim S600000 ![] bcast_S_S600000 : (⟨S_, .i32⟩ : BufTy).Contents (Elt F) → (⟨S600000, .i32⟩ : BufTy).Contents (Elt F)),
    binary main_arg10 main_v10 main_v11 (addi : (⟨S600000, .i32⟩ : BufTy).Contents (Elt F) → (⟨S600000, .i32⟩ : BufTy).Contents (Elt F) → (⟨S600000, .i32⟩ : BufTy).Contents (Elt F)),
    ternary main_v9 main_v11 main_arg10 main_v12 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v12 main_v13 (broadcastInDim S600000x1 ![0] bcast_S600000_S600000x1_0 : (⟨S600000, .i32⟩ : BufTy).Contents (Elt F) → (⟨S600000x1, .i32⟩ : BufTy).Contents (Elt F)),
    binary main_arg4 main_v13 main_v14 ((fun x i => Host.gather gather_S10x200_S600000x1_S600000x200_1_0_n_n_0_1_1200 x i) : (⟨S10x200, .f32⟩ : BufTy).Contents (Elt F) → (⟨S600000x1, .i32⟩ : BufTy).Contents (Elt F) → (⟨S600000x200, .f32⟩ : BufTy).Contents (Elt F)),
    binary main_v7 main_v14 main_v15 (mulf : (⟨S600000x200, .f32⟩ : BufTy).Contents (Elt F) → (⟨S600000x200, .f32⟩ : BufTy).Contents (Elt F) → (⟨S600000x200, .f32⟩ : BufTy).Contents (Elt F)),
    nullary main_cst (constant S_ .f32 0x00000000#32),
    unary main_cst main_v16 (broadcastInDim S40000x200 ![] bcast_S_S40000x200 : (⟨S_, .f32⟩ : BufTy).Contents (Elt F) → (⟨S40000x200, .f32⟩ : BufTy).Contents (Elt F)),
    unary main_arg9 main_v17 (broadcastInDim S600000x1 ![0] bcast_S600000_S600000x1_0 : (⟨S600000, .i32⟩ : BufTy).Contents (Elt F) → (⟨S600000x1, .i32⟩ : BufTy).Contents (Elt F)),
    ternary main_v16 main_v17 main_v15 main_v18 ((fun x i u => Host.scatterAdd scatter_S40000x200_S600000x1_S600000x200_1_0_0_1 x i u) : (⟨S40000x200, .f32⟩ : BufTy).Contents (Elt F) → (⟨S600000x1, .i32⟩ : BufTy).Contents (Elt F) → (⟨S600000x200, .f32⟩ : BufTy).Contents (Elt F) → (⟨S40000x200, .f32⟩ : BufTy).Contents (Elt F)),
    unary main_arg7 main_v19 (broadcastInDim S40000x200 ![0, 1] bcast_S40000x1_S40000x200_0_1 : (⟨S40000x1, .f32⟩ : BufTy).Contents (Elt F) → (⟨S40000x200, .f32⟩ : BufTy).Contents (Elt F)),
    binary main_v18 main_v19 main_v20 (mulf : (⟨S40000x200, .f32⟩ : BufTy).Contents (Elt F) → (⟨S40000x200, .f32⟩ : BufTy).Contents (Elt F) → (⟨S40000x200, .f32⟩ : BufTy).Contents (Elt F)),
    nullary main_cst_3 (constant S_ .f32 0x00000000#32),
    unary main_cst_3 main_v21 (broadcastInDim S40000x200 ![] bcast_S_S40000x200 : (⟨S_, .f32⟩ : BufTy).Contents (Elt F) → (⟨S40000x200, .f32⟩ : BufTy).Contents (Elt F)),
    binary main_v20 main_v21 main_v22 (cmpf .oge : (⟨S40000x200, .f32⟩ : BufTy).Contents (Elt F) → (⟨S40000x200, .f32⟩ : BufTy).Contents (Elt F) → (⟨S40000x200, .i1⟩ : BufTy).Contents (Elt F)),
    nullary main_cst_4 (constant S_ .f32 0x3E6AAAAB#32),
    unary main_cst_4 main_v23 (broadcastInDim S40000x200 ![] bcast_S_S40000x200 : (⟨S_, .f32⟩ : BufTy).Contents (Elt F) → (⟨S40000x200, .f32⟩ : BufTy).Contents (Elt F)),
    binary main_v23 main_v20 main_v24 (mulf : (⟨S40000x200, .f32⟩ : BufTy).Contents (Elt F) → (⟨S40000x200, .f32⟩ : BufTy).Contents (Elt F) → (⟨S40000x200, .f32⟩ : BufTy).Contents (Elt F)),
    TRef.ternary (.of main_v22 : TRef sig ⟨S40000x200, .i1⟩) (.of main_v20 : TRef sig ⟨S40000x200, .f32⟩) (.of main_v24 : TRef sig ⟨S40000x200, .f32⟩) main_call0.v0 select,
    unary main_v25 main_v26 ((extractStridedSlice S30000x200 ![0, 0] · slices_S40000x200_S30000x200_0_0) : (⟨S40000x200, .f32⟩ : BufTy).Contents (Elt F) → (⟨S30000x200, .f32⟩ : BufTy).Contents (Elt F)),
    unary main_arg11 main_v27 ((extractStridedSlice S4096x1 ![0, 0] · slices_S4096x4_S4096x1_0_0) : (⟨S4096x4, .i32⟩ : BufTy).Contents (Elt F) → (⟨S4096x1, .i32⟩ : BufTy).Contents (Elt F)),
    reshape main_v27 main_v28 rfl shapeCasts_S4096x1_S4096,
    nullary main_c_5 (constantI S_ 32 0#32),
    unary main_c_5 main_v29 (broadcastInDim S4096 ![] bcast_S_S4096 : (⟨S_, .i32⟩ : BufTy).Contents (Elt F) → (⟨S4096, .i32⟩ : BufTy).Contents (Elt F)),
    binary main_v28 main_v29 main_v30 (cmpi .slt : (⟨S4096, .i32⟩ : BufTy).Contents (Elt F) → (⟨S4096, .i32⟩ : BufTy).Contents (Elt F) → (⟨S4096, .i1⟩ : BufTy).Contents (Elt F)),
    nullary main_c_6 (constantI S_ 32 30000#32),
    unary main_c_6 main_v31 (broadcastInDim S4096 ![] bcast_S_S4096 : (⟨S_, .i32⟩ : BufTy).Contents (Elt F) → (⟨S4096, .i32⟩ : BufTy).Contents (Elt F)),
    binary main_v28 main_v31 main_v32 (addi : (⟨S4096, .i32⟩ : BufTy).Contents (Elt F) → (⟨S4096, .i32⟩ : BufTy).Contents (Elt F) → (⟨S4096, .i32⟩ : BufTy).Contents (Elt F)),
    ternary main_v30 main_v32 main_v28 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v33 main_v34 (broadcastInDim S4096x1 ![0] bcast_S4096_S4096x1_0 : (⟨S4096, .i32⟩ : BufTy).Contents (Elt F) → (⟨S4096x1, .i32⟩ : BufTy).Contents (Elt F)),
    binary main_v26 main_v34 main_v35 ((fun x i => Host.gather gather_S30000x200_S4096x1_S4096x200_1_0_n_n_0_1_1200 x i) : (⟨S30000x200, .f32⟩ : BufTy).Contents (Elt F) → (⟨S4096x1, .i32⟩ : BufTy).Contents (Elt F) → (⟨S4096x200, .f32⟩ : BufTy).Contents (Elt F)),
    unary main_arg11 main_v36 ((extractStridedSlice S4096x1 ![0, 1] · slices_S4096x4_S4096x1_0_1) : (⟨S4096x4, .i32⟩ : BufTy).Contents (Elt F) → (⟨S4096x1, .i32⟩ : BufTy).Contents (Elt F)),
    reshape main_v36 main_v37 rfl shapeCasts_S4096x1_S4096,
    nullary main_c_7 (constantI S_ 32 0#32),
    unary main_c_7 main_v38 (broadcastInDim S4096 ![] bcast_S_S4096 : (⟨S_, .i32⟩ : BufTy).Contents (Elt F) → (⟨S4096, .i32⟩ : BufTy).Contents (Elt F)),
    binary main_v37 main_v38 main_v39 (cmpi .slt : (⟨S4096, .i32⟩ : BufTy).Contents (Elt F) → (⟨S4096, .i32⟩ : BufTy).Contents (Elt F) → (⟨S4096, .i1⟩ : BufTy).Contents (Elt F)),
    nullary main_c_8 (constantI S_ 32 230#32),
    unary main_c_8 main_v40 (broadcastInDim S4096 ![] bcast_S_S4096 : (⟨S_, .i32⟩ : BufTy).Contents (Elt F) → (⟨S4096, .i32⟩ : BufTy).Contents (Elt F)),
    binary main_v37 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v37 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v43 (broadcastInDim S4096x1 ![0] bcast_S4096_S4096x1_0 : (⟨S4096, .i32⟩ : BufTy).Contents (Elt F) → (⟨S4096x1, .i32⟩ : BufTy).Contents (Elt F)),
    binary main_arg2 main_v43 main_v44 ((fun x i => Host.gather gather_S230x200_S4096x1_S4096x200_1_0_n_n_0_1_1200 x i) : (⟨S230x200, .f32⟩ : BufTy).Contents (Elt F) → (⟨S4096x1, .i32⟩ : BufTy).Contents (Elt F) → (⟨S4096x200, .f32⟩ : BufTy).Contents (Elt F)),
    unary main_arg11 main_v45 ((extractStridedSlice S4096x1 ![0, 3] · slices_S4096x4_S4096x1_0_3) : (⟨S4096x4, .i32⟩ : BufTy).Contents (Elt F) → (⟨S4096x1, .i32⟩ : BufTy).Contents (Elt F)),
    reshape main_v45 main_v46 rfl shapeCasts_S4096x1_S4096,
    nullary main_c_9 (constantI S_ 32 24#32),
    TRef.unary (.of main_c_9 : TRef sig ⟨S_, .i32⟩) main_call1.v0 id,
    TRef.unary main_call1.v0 main_call1.v1 (broadcastInDim S4096 ![] bcast_S_S4096),
    TRef.binary (.of main_v46 : TRef sig ⟨S4096, .i32⟩) main_call1.v1 main_call1.v2 Host.divsi,
    TRef.unary (.of main_v46 : TRef sig ⟨S4096, .i32⟩) main_call1.v3 signi,
    TRef.unary main_call1.v0 main_call1.v4 signi,
    TRef.unary main_call1.v4 main_call1.v5 (broadcastInDim S4096 ![] bcast_S_S4096),
    TRef.binary main_call1.v3 main_call1.v5 main_call1.v6 (cmpi .ne),
    TRef.unary main_call1.v0 main_call1.v7 (broadcastInDim S4096 ![] bcast_S_S4096),
    TRef.binary (.of main_v46 : TRef sig ⟨S4096, .i32⟩) main_call1.v7 main_call1.v8 Host.remsi,
    TRef.nullary main_call1.c (constantI S_ 32 0#32),
    TRef.unary main_call1.c main_call1.v9 (broadcastInDim S4096 ![] bcast_S_S4096),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S4096 ![] bcast_S_S4096),
    TRef.binary main_call1.v2 main_call1.v12 main_call1.v13 subi,
    TRef.ternary main_call1.v11 main_call1.v13 main_call1.v2 main_call1.call0.v0 select,
    nullary main_c_10 (constantI S_ 32 0#32),
    unary main_c_10 main_v48 (broadcastInDim S4096 ![] bcast_S_S4096 : (⟨S_, .i32⟩ : BufTy).Contents (Elt F) → (⟨S4096, .i32⟩ : BufTy).Contents (Elt F)),
    binary main_v47 main_v48 main_v49 (cmpi .slt : (⟨S4096, .i32⟩ : BufTy).Contents (Elt F) → (⟨S4096, .i32⟩ : BufTy).Contents (Elt F) → (⟨S4096, .i1⟩ : BufTy).Contents (Elt F)),
    nullary main_c_11 (constantI S_ 32 365#32),
    unary main_c_11 main_v50 (broadcastInDim S4096 ![] bcast_S_S4096 : (⟨S_, .i32⟩ : BufTy).Contents (Elt F) → (⟨S4096, .i32⟩ : BufTy).Contents (Elt F)),
    binary main_v47 main_v50 main_v51 (addi : (⟨S4096, .i32⟩ : BufTy).Contents (Elt F) → (⟨S4096, .i32⟩ : BufTy).Contents (Elt F) → (⟨S4096, .i32⟩ : BufTy).Contents (Elt F)),
    ternary main_v49 main_v51 main_v47 main_v52 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v52 main_v53 (broadcastInDim S4096x1 ![0] bcast_S4096_S4096x1_0 : (⟨S4096, .i32⟩ : BufTy).Contents (Elt F) → (⟨S4096x1, .i32⟩ : BufTy).Contents (Elt F)),
    binary main_arg3 main_v53 main_v54 ((fun x i => Host.gather gather_S365x1_S4096x1_S4096x1_1_0_n_n_0_1_11 x i) : (⟨S365x1, .f32⟩ : BufTy).Contents (Elt F) → (⟨S4096x1, .i32⟩ : BufTy).Contents (Elt F) → (⟨S4096x1, .f32⟩ : BufTy).Contents (Elt F)),
    unary main_v35 main_v55 (Host.tanh : (⟨S4096x200, .f32⟩ : BufTy).Contents (Elt F) → (⟨S4096x200, .f32⟩ : BufTy).Contents (Elt F)),
    nary ![main_v55, main_v44, main_v54] main_v56 (fun u => concatenate S4096x401 1 [⟨S4096x200, u 0⟩, ⟨S4096x200, u 1⟩, ⟨S4096x1, u 2⟩] concatenates_S4096x200_S4096x200_S4096x1_S4096x401_d1),
    unary main_arg5 main_v57 ((transpose S401x200 [1, 0] · transposes_S200x401_S401x200_1_0) : (⟨S200x401, .f32⟩ : BufTy).Contents (Elt F) → (⟨S401x200, .f32⟩ : BufTy).Contents (Elt F)),
    binary main_v56 main_v57 main_v58 ((fun l r => Host.dotGeneral dot_S4096x401_S401x200_S4096x200_1_0_0_1_n_n none l r) : (⟨S4096x401, .f32⟩ : BufTy).Contents (Elt F) → (⟨S401x200, .f32⟩ : BufTy).Contents (Elt F) → (⟨S4096x200, .f32⟩ : BufTy).Contents (Elt F)),
    unary main_arg6 main_v59 (broadcastInDim S1x200 ![1] bcast_S200_S1x200_1 : (⟨S200, .f32⟩ : BufTy).Contents (Elt F) → (⟨S1x200, .f32⟩ : BufTy).Contents (Elt F)),
    unary main_v59 main_v60 (broadcastInDim S4096x200 ![0, 1] bcast_S1x200_S4096x200_0_1 : (⟨S1x200, .f32⟩ : BufTy).Contents (Elt F) → (⟨S4096x200, .f32⟩ : BufTy).Contents (Elt F)),
    binary main_v58 main_v60 main_v61 (addf : (⟨S4096x200, .f32⟩ : BufTy).Contents (Elt F) → (⟨S4096x200, .f32⟩ : BufTy).Contents (Elt F) → (⟨S4096x200, .f32⟩ : BufTy).Contents (Elt F)),
    TRef.nullary main_call2.cst (constant S_ .f32 0x00000000#32),
    TRef.unary main_call2.cst main_call2.v0 (broadcastInDim S4096x200 ![] bcast_S_S4096x200),
    TRef.binary (.of main_v61 : TRef sig ⟨S4096x200, .f32⟩) main_call2.v0 main_call2.v1 maximumf,
    unary main_v26 main_v63 ((transpose S200x30000 [1, 0] · transposes_S30000x200_S200x30000_1_0) : (⟨S30000x200, .f32⟩ : BufTy).Contents (Elt F) → (⟨S200x30000, .f32⟩ : BufTy).Contents (Elt F)),
    binary main_v62 main_v63 main_v64 ((fun l r => Host.dotGeneral dot_S4096x200_S200x30000_S4096x30000_1_0_0_1_n_n none l r) : (⟨S4096x200, .f32⟩ : BufTy).Contents (Elt F) → (⟨S200x30000, .f32⟩ : BufTy).Contents (Elt F) → (⟨S4096x30000, .f32⟩ : BufTy).Contents (Elt F)) ]

set_option maxRecDepth 4096 in
set_option maxHeartbeats 8000000 in
/-- @main is that straight line: the two windows and the functions' definitions unfolded, both sides
    are one chain of `hlo` steps once sequencing is reassociated. -/
theorem main_eq (c : Dev nD) : main (F := F) c = seq ops := by
  simp only [main, main_part0, main_part1, fn_where.body, fn_where_0.body, fn_floor_divide.body, fn_relu.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., nary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub ..⟩

/-- From any memory with zero counters every weakly fair execution of @main terminates, each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Program

end Cert.ReferenceIdeal.RefRun

end
-- ==== Proof.RefDecode.lean ====
/-
  The decoder both programs apply to the shared host prefix: the entity rows passed through the
  hyperbolic tangent, laid beside the relation rows and the time column, multiplied by the
  transposed decoder weights, the bias added, the rectifier applied, and the result multiplied by
  the transposed static embedding. The definition is the reference's host operations composed in
  the program's order, at the ideal instance.
-/
import proofs.«158429_j18803366822339_2_alg».proof.ReferenceIdeal
import Idealize.ShloMosaic.PureOps.Ideal

noncomputable section

namespace Cert.ReferenceIdeal.RefRun

open Idealize.ShloMosaic Cert.ReferenceIdeal
open Cert.ReferenceIdeal.Facts₀ Cert.ReferenceIdeal.Facts

variable [Cert.ReferenceIdeal.Facts]

/-- `relu([tanh ent, rel, tim] · a5ᵀ + a6) · seᵀ`, as the reference's host operations. -/
def decode (ent rel : FVec Ideal S4096x200 .f32) (tim : FVec Ideal S4096x1 .f32) (a5 : FVec Ideal S200x401 .f32)
    (a6 : FVec Ideal S200 .f32) (se : FVec Ideal S30000x200 .f32) : FVec Ideal S4096x30000 .f32 :=
  Host.dotGeneral (F := Ideal) (φ₁ := .f32) (φ₂ := .f32) dot_S4096x200_S200x30000_S4096x30000_1_0_0_1_n_n none
    (maximumf (F := Ideal) (φ := .f32)
      (addf (F := Ideal) (φ := .f32)
        (Host.dotGeneral (F := Ideal) (φ₁ := .f32) (φ₂ := .f32) dot_S4096x401_S401x200_S4096x200_1_0_0_1_n_n none
          (concatenate S4096x401 1 [⟨S4096x200, Host.tanh (F := Ideal) (φ := .f32) ent⟩, ⟨S4096x200, rel⟩, ⟨S4096x1, tim⟩]
            concatenates_S4096x200_S4096x200_S4096x1_S4096x401_d1)
          (transpose S401x200 [1, 0] a5 transposes_S200x401_S401x200_1_0))
        (broadcastInDim S4096x200 ![0, 1] bcast_S1x200_S4096x200_0_1 (broadcastInDim S1x200 ![1] bcast_S200_S1x200_1 a6)))
      (broadcastInDim S4096x200 ![] bcast_S_S4096x200 (constant (F := Ideal) S_ .f32 0x00000000#32)))
    (transpose S200x30000 [1, 0] se transposes_S30000x200_S200x30000_1_0)

end Cert.ReferenceIdeal.RefRun

end
-- ==== Proof.RefRun.lean ====
/-
  The reference program's run with its result named: the result buffer's fold over the
  ninety-seven operations is the decoder applied to the shared host prefix of the argument
  arrays, and each argument buffer, which no operation writes, keeps its launch contents.
-/
import proofs.«158429_j18803366822339_2_alg».proof.Proof.RefOps
import proofs.«158429_j18803366822339_2_alg».proof.Proof.RefDecode
import proofs.«158429_j18803366822339_2_alg».proof.Proof.Prefix

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The concatenation of the three decoder inputs along the columns, as a function of the three. -/
def cat3 (x y : (⟨S4096x200, .f32⟩ : BufTy).Contents (Elt Ideal)) (z : (⟨S4096x1, .f32⟩ : BufTy).Contents (Elt Ideal)) :
    (⟨S4096x401, .f32⟩ : BufTy).Contents (Elt Ideal) :=
  concatenate S4096x401 1 [⟨S4096x200, x⟩, ⟨S4096x200, y⟩, ⟨S4096x1, z⟩] concatenates_S4096x200_S4096x200_S4096x1_S4096x401_d1

/-- The three-operand concatenation leaves, at its result buffer, the concatenation of the three
    operands' contents, each read at its own buffer. -/
theorem concat_result' (hxs hy) (F : Valuation τ sig (Elt Ideal)) :
    (nary (τ := τ) ![main_v55, main_v44, main_v54] main_v56
        (fun u => concatenate S4096x401 1 [⟨S4096x200, u 0⟩, ⟨S4096x200, u 1⟩, ⟨S4096x1, u 2⟩]
          concatenates_S4096x200_S4096x200_S4096x1_S4096x401_d1) hxs hy).result F (no_index (Proc.devRef .tc main_v56))
      = cat3 (F (Proc.devRef .tc main_v55)) (F (Proc.devRef .tc main_v44)) (F (Proc.devRef .tc main_v54)) :=
  nary_result _ _ _ hxs hy F

set_option maxRecDepth 16384 in
set_option maxHeartbeats 8000000 in
/-- The result buffer after the ninety-seven operations is the decoder applied to the shared host
    prefix of the argument buffers' contents: the fold unrolled and each operation's result read at
    its own buffer, the two sides are the same composition of host operations. -/
theorem out_eq (V : Valuation τ sig (Elt Ideal)) :
    after (ops (F := Ideal)) V (main_v64 : DevRef τ sig)
      = decode (Cert.Prefix.entOf (Cert.Prefix.staticEmb (V (main_arg0 : DevRef τ sig)) (V (main_arg1 : DevRef τ sig)) (V (main_arg4 : DevRef τ sig)) (V (main_arg7 : DevRef τ sig)) (V (main_arg8 : DevRef τ sig)) (V (main_arg9 : DevRef τ sig)) (V (main_arg10 : DevRef τ sig))) (V (main_arg11 : DevRef τ sig))) (Cert.Prefix.relOf (V (main_arg2 : DevRef τ sig)) (V (main_arg11 : DevRef τ sig))) (Cert.Prefix.timOf (V (main_arg3 : DevRef τ sig)) (V (main_arg11 : DevRef τ sig))) (V (main_arg5 : DevRef τ sig)) (V (main_arg6 : DevRef τ sig)) (Cert.Prefix.staticEmb (V (main_arg0 : DevRef τ sig)) (V (main_arg1 : DevRef τ sig)) (V (main_arg4 : DevRef τ sig)) (V (main_arg7 : DevRef τ sig)) (V (main_arg8 : DevRef τ sig)) (V (main_arg9 : DevRef τ sig)) (V (main_arg10 : DevRef τ sig))) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]
  rfl

/-! No operation writes an argument buffer: each keeps its contents through the fold. -/

set_option maxRecDepth 16384 in
set_option maxHeartbeats 4000000 in
theorem arg0_eq (V : Valuation τ sig (Elt Ideal)) :
    after (ops (F := Ideal)) V (main_arg0 : DevRef τ sig) = V (main_arg0 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg1_eq (V : Valuation τ sig (Elt Ideal)) :
    after (ops (F := Ideal)) V (main_arg1 : DevRef τ sig) = V (main_arg1 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg2_eq (V : Valuation τ sig (Elt Ideal)) :
    after (ops (F := Ideal)) V (main_arg2 : DevRef τ sig) = V (main_arg2 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg3_eq (V : Valuation τ sig (Elt Ideal)) :
    after (ops (F := Ideal)) V (main_arg3 : DevRef τ sig) = V (main_arg3 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg4_eq (V : Valuation τ sig (Elt Ideal)) :
    after (ops (F := Ideal)) V (main_arg4 : DevRef τ sig) = V (main_arg4 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg5_eq (V : Valuation τ sig (Elt Ideal)) :
    after (ops (F := Ideal)) V (main_arg5 : DevRef τ sig) = V (main_arg5 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg6_eq (V : Valuation τ sig (Elt Ideal)) :
    after (ops (F := Ideal)) V (main_arg6 : DevRef τ sig) = V (main_arg6 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg7_eq (V : Valuation τ sig (Elt Ideal)) :
    after (ops (F := Ideal)) V (main_arg7 : DevRef τ sig) = V (main_arg7 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg8_eq (V : Valuation τ sig (Elt Ideal)) :
    after (ops (F := Ideal)) V (main_arg8 : DevRef τ sig) = V (main_arg8 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg9_eq (V : Valuation τ sig (Elt Ideal)) :
    after (ops (F := Ideal)) V (main_arg9 : DevRef τ sig) = V (main_arg9 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg10_eq (V : Valuation τ sig (Elt Ideal)) :
    after (ops (F := Ideal)) V (main_arg10 : DevRef τ sig) = V (main_arg10 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

set_option maxRecDepth 16384 in
set_option maxHeartbeats 4000000 in
theorem arg11_eq (V : Valuation τ sig (Elt Ideal)) :
    after (ops (F := Ideal)) V (main_arg11 : DevRef τ sig) = V (main_arg11 : DevRef τ sig) := by
  simp (disch := decide) only [after_cons, after_nil,
      nullary_result', unary_result', binary_result', ternary_result', reshape_result', concat_result',
      nullary_result_ne', unary_result_ne', binary_result_ne', ternary_result_ne', reshape_result_ne', nary_result_ne',
      TRef.toBuf, TRef.ofBuf, cast_eq]

/-- On every device, from any memory with zero counters: every weakly fair execution of @main
    terminates with the result buffer at the decoder of the shared host prefix of the arguments, and
    the twelve argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64)
          = decode (Cert.Prefix.entOf (Cert.Prefix.staticEmb (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11))) (Cert.Prefix.relOf (m ((c.tc : Thread nD τ).loc main_arg2)) (m ((c.tc : Thread nD τ).loc main_arg11))) (Cert.Prefix.timOf (m ((c.tc : Thread nD τ).loc main_arg3)) (m ((c.tc : Thread nD τ).loc main_arg11))) (m ((c.tc : Thread nD τ).loc main_arg5)) (m ((c.tc : Thread nD τ).loc main_arg6)) (Cert.Prefix.staticEmb (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v64).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_main m ρ)

end Cert.ReferenceIdeal.RefRun

end
-- ==== Proof.RefValue.lean ====
/-
  The decoder read at an index, at the ideal instance: each of the two host products is the sum
  over its one contracted axis, the transposes swap the two coordinates, the bias is broadcast
  along the rows, the rectifier is the maximum with zero, and the three-piece concatenation reads
  the hyperbolic tangent of the entity row on columns 0–199, the relation row on columns 200–399
  and the time column at column 400.
-/
import proofs.«158429_j18803366822339_2_alg».proof.Proof.Gen.ReferenceIdeal
import proofs.«158429_j18803366822339_2_alg».proof.Proof.RefDecode
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.RefRun
open Cert.ReferenceIdeal.Facts₀ Cert.ReferenceIdeal.Facts
open scoped BigOperators

/-! The operand indices of the product `S4096x401 × S401x200 → S4096x200` at a result index and a contraction position,
    axis by axis: a free axis reads the result index, the contracted axis the contraction position. -/

theorem lhs_a_0 (i : S4096x200.Idx) (q : dot_S4096x401_S401x200_S4096x200_1_0_0_1_n_n.contr.Idx) : (dot_S4096x401_S401x200_S4096x200_1_0_0_1_n_n.lhsIdx i q 0).val = (i 0).val := by
  unfold DotDims.lhsIdx
  rw [dif_neg (show ¬(0 : Fin S4096x401.rank) ∈ dot_S4096x401_S401x200_S4096x200_1_0_0_1_n_n.lhsBatch by decide), dif_pos (show (0 : Fin S4096x401.rank) ∈ dot_S4096x401_S401x200_S4096x200_1_0_0_1_n_n.lhsNonContracting by decide)]
  rfl
theorem lhs_a_1 (i : S4096x200.Idx) (q : dot_S4096x401_S401x200_S4096x200_1_0_0_1_n_n.contr.Idx) : (dot_S4096x401_S401x200_S4096x200_1_0_0_1_n_n.lhsIdx i q 1).val = (q ⟨0, by decide⟩).val :=
  dot_S4096x401_S401x200_S4096x200_1_0_0_1_n_n.lhsIdx_val_of_single rfl i q
theorem rhs_a_0 (i : S4096x200.Idx) (q : dot_S4096x401_S401x200_S4096x200_1_0_0_1_n_n.contr.Idx) : (dot_S4096x401_S401x200_S4096x200_1_0_0_1_n_n.rhsIdx i q 0).val = (q ⟨0, by decide⟩).val :=
  dot_S4096x401_S401x200_S4096x200_1_0_0_1_n_n.rhsIdx_val_of_single rfl i q
theorem rhs_a_1 (i : S4096x200.Idx) (q : dot_S4096x401_S401x200_S4096x200_1_0_0_1_n_n.contr.Idx) : (dot_S4096x401_S401x200_S4096x200_1_0_0_1_n_n.rhsIdx i q 1).val = (i 1).val := by
  unfold DotDims.rhsIdx
  rw [dif_neg (show ¬(1 : Fin S401x200.rank) ∈ dot_S4096x401_S401x200_S4096x200_1_0_0_1_n_n.rhsBatch by decide), dif_pos (show (1 : Fin S401x200.rank) ∈ dot_S4096x401_S401x200_S4096x200_1_0_0_1_n_n.rhsNonContracting by decide)]
  rfl

/-- The host product `S4096x401 × S401x200` at the ideal values, read at `(r, c)`: the sum over the one contracted
    axis of the left operand at `(r, k)` times the right at `(k, c)`. -/
theorem dot_a_apply (L : FVec Ideal S4096x401 .f32) (R : FVec Ideal S401x200 .f32) (r : Fin 4096) (c : Fin 200) :
    FloatOps.dotGeneral dot_S4096x401_S401x200_S4096x200_1_0_0_1_n_n none .single L R (ix2 r c) = ∑ k : Fin 401, L (ix2 r k) * R (ix2 k c) := by
  rw [Ideal.dotGeneral_apply, ← Equiv.sum_comp (contrEquiv1 dot_S4096x401_S401x200_S4096x200_1_0_0_1_n_n 401 rfl rfl).symm]
  refine Finset.sum_congr rfl fun k _ => ?_
  have hk := contrEquiv1_symm_val dot_S4096x401_S401x200_S4096x200_1_0_0_1_n_n 401 rfl rfl k
  have el : dot_S4096x401_S401x200_S4096x200_1_0_0_1_n_n.lhsIdx (ix2 r c) ((contrEquiv1 dot_S4096x401_S401x200_S4096x200_1_0_0_1_n_n 401 rfl rfl).symm k) = ix2 r k := funext fun a => Fin.ext (by
    match a with
    | ⟨0, _⟩ => exact lhs_a_0 _ _
    | ⟨1, _⟩ => exact (lhs_a_1 _ _).trans hk)
  have er : dot_S4096x401_S401x200_S4096x200_1_0_0_1_n_n.rhsIdx (ix2 r c) ((contrEquiv1 dot_S4096x401_S401x200_S4096x200_1_0_0_1_n_n 401 rfl rfl).symm k) = ix2 k c := funext fun a => Fin.ext (by
    match a with
    | ⟨0, _⟩ => exact (rhs_a_0 _ _).trans hk
    | ⟨1, _⟩ => exact rhs_a_1 _ _)
  rw [el, er]

/-! The operand indices of the product `S4096x200 × S200x30000 → S4096x30000` at a result index and a contraction position,
    axis by axis: a free axis reads the result index, the contracted axis the contraction position. -/

theorem lhs_b_0 (i : S4096x30000.Idx) (q : dot_S4096x200_S200x30000_S4096x30000_1_0_0_1_n_n.contr.Idx) : (dot_S4096x200_S200x30000_S4096x30000_1_0_0_1_n_n.lhsIdx i q 0).val = (i 0).val := by
  unfold DotDims.lhsIdx
  rw [dif_neg (show ¬(0 : Fin S4096x200.rank) ∈ dot_S4096x200_S200x30000_S4096x30000_1_0_0_1_n_n.lhsBatch by decide), dif_pos (show (0 : Fin S4096x200.rank) ∈ dot_S4096x200_S200x30000_S4096x30000_1_0_0_1_n_n.lhsNonContracting by decide)]
  rfl
theorem lhs_b_1 (i : S4096x30000.Idx) (q : dot_S4096x200_S200x30000_S4096x30000_1_0_0_1_n_n.contr.Idx) : (dot_S4096x200_S200x30000_S4096x30000_1_0_0_1_n_n.lhsIdx i q 1).val = (q ⟨0, by decide⟩).val :=
  dot_S4096x200_S200x30000_S4096x30000_1_0_0_1_n_n.lhsIdx_val_of_single rfl i q
theorem rhs_b_0 (i : S4096x30000.Idx) (q : dot_S4096x200_S200x30000_S4096x30000_1_0_0_1_n_n.contr.Idx) : (dot_S4096x200_S200x30000_S4096x30000_1_0_0_1_n_n.rhsIdx i q 0).val = (q ⟨0, by decide⟩).val :=
  dot_S4096x200_S200x30000_S4096x30000_1_0_0_1_n_n.rhsIdx_val_of_single rfl i q
theorem rhs_b_1 (i : S4096x30000.Idx) (q : dot_S4096x200_S200x30000_S4096x30000_1_0_0_1_n_n.contr.Idx) : (dot_S4096x200_S200x30000_S4096x30000_1_0_0_1_n_n.rhsIdx i q 1).val = (i 1).val := by
  unfold DotDims.rhsIdx
  rw [dif_neg (show ¬(1 : Fin S200x30000.rank) ∈ dot_S4096x200_S200x30000_S4096x30000_1_0_0_1_n_n.rhsBatch by decide), dif_pos (show (1 : Fin S200x30000.rank) ∈ dot_S4096x200_S200x30000_S4096x30000_1_0_0_1_n_n.rhsNonContracting by decide)]
  rfl

/-- The host product `S4096x200 × S200x30000` at the ideal values, read at `(r, c)`: the sum over the one contracted
    axis of the left operand at `(r, k)` times the right at `(k, c)`. -/
theorem dot_b_apply (L : FVec Ideal S4096x200 .f32) (R : FVec Ideal S200x30000 .f32) (r : Fin 4096) (c : Fin 30000) :
    FloatOps.dotGeneral dot_S4096x200_S200x30000_S4096x30000_1_0_0_1_n_n none .single L R (ix2 r c) = ∑ k : Fin 200, L (ix2 r k) * R (ix2 k c) := by
  rw [Ideal.dotGeneral_apply, ← Equiv.sum_comp (contrEquiv1 dot_S4096x200_S200x30000_S4096x30000_1_0_0_1_n_n 200 rfl rfl).symm]
  refine Finset.sum_congr rfl fun k _ => ?_
  have hk := contrEquiv1_symm_val dot_S4096x200_S200x30000_S4096x30000_1_0_0_1_n_n 200 rfl rfl k
  have el : dot_S4096x200_S200x30000_S4096x30000_1_0_0_1_n_n.lhsIdx (ix2 r c) ((contrEquiv1 dot_S4096x200_S200x30000_S4096x30000_1_0_0_1_n_n 200 rfl rfl).symm k) = ix2 r k := funext fun a => Fin.ext (by
    match a with
    | ⟨0, _⟩ => exact lhs_b_0 _ _
    | ⟨1, _⟩ => exact (lhs_b_1 _ _).trans hk)
  have er : dot_S4096x200_S200x30000_S4096x30000_1_0_0_1_n_n.rhsIdx (ix2 r c) ((contrEquiv1 dot_S4096x200_S200x30000_S4096x30000_1_0_0_1_n_n 200 rfl rfl).symm k) = ix2 k c := funext fun a => Fin.ext (by
    match a with
    | ⟨0, _⟩ => exact (rhs_b_0 _ _).trans hk
    | ⟨1, _⟩ => exact rhs_b_1 _ _)
  rw [el, er]

/-- Row `b` of the decoder's input: the hyperbolic tangent of the entity row on columns 0–199, the
    relation row on columns 200–399, the time value at column 400. -/
def xcat (ent rel : FVec Ideal S4096x200 .f32) (tim : FVec Ideal S4096x1 .f32) (b : Fin 4096) (j : Fin 401) : EReal :=
  if h : j.val < 200 then Ideal.tanh (ent (ix2 b ⟨j.val, h⟩))
  else if h2 : j.val < 400 then rel (ix2 b ⟨j.val - 200, by omega⟩)
  else tim (ix2 b (0 : Fin 1))

/-- The three-piece concatenation along the columns, read at `(b, j)`. -/
theorem concat_apply (ent rel : FVec Ideal S4096x200 .f32) (tim : FVec Ideal S4096x1 .f32) (b : Fin 4096) (j : Fin 401) :
    concatenate S4096x401 1 [⟨S4096x200, Host.tanh (F := Ideal) (φ := .f32) ent⟩, ⟨S4096x200, rel⟩, ⟨S4096x1, tim⟩]
        concatenates_S4096x200_S4096x200_S4096x1_S4096x401_d1 (ix2 b j)
      = xcat ent rel tim b j := by
  unfold xcat
  by_cases h : j.val < 200
  · rw [dif_pos h]
    refine (concatenate_apply_piece (1 : Fin S4096x401.rank) _ _ (ix2 b j) 0 (by simp) S4096x200
      (Host.tanh (F := Ideal) (φ := .f32) ent) rfl rfl 0 rfl (ix2 b ⟨j.val, h⟩) ?_ ?_).trans rfl
    · intro c hc
      match c with
      | ⟨0, _⟩ => rfl
      | ⟨1, _⟩ => exact absurd rfl hc
    · show 0 + j.val = j.val
      omega
  · rw [dif_neg h]
    by_cases h2 : j.val < 400
    · rw [dif_pos h2]
      refine concatenate_apply_piece (1 : Fin S4096x401.rank) _ _ (ix2 b j) 1 (by simp) S4096x200
        rel rfl rfl 200 rfl (ix2 b ⟨j.val - 200, by omega⟩) ?_ ?_
      · intro c hc
        match c with
        | ⟨0, _⟩ => rfl
        | ⟨1, _⟩ => exact absurd rfl hc
      · show 200 + (j.val - 200) = j.val
        omega
    · rw [dif_neg h2]
      refine concatenate_apply_piece (1 : Fin S4096x401.rank) _ _ (ix2 b j) 2 (by simp) S4096x1
        tim rfl rfl 400 rfl (ix2 b (0 : Fin 1)) ?_ ?_
      · intro c hc
        match c with
        | ⟨0, _⟩ => rfl
        | ⟨1, _⟩ => exact absurd rfl hc
      · show 400 + 0 = j.val
        have := j.isLt
        omega

/-- The bias, broadcast to one row and then along the rows, read at `(b, k)`. -/
theorem bias_apply (a6 : FVec Ideal S200 .f32) (b : Fin 4096) (k : Fin 200) :
    broadcastInDim S4096x200 ![0, 1] bcast_S1x200_S4096x200_0_1 (broadcastInDim S1x200 ![1] bcast_S200_S1x200_1 a6) (ix2 b k)
      = a6 (ix1 k) := by
  refine (broadcastInDim_apply _ _ _ (ix2 b k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- The decoder at `(b, n)`: `∑ₖ max ((∑ⱼ xcat b j · a5 k j) + a6 k) 0 · se n k`. -/
theorem decode_apply (ent rel : FVec Ideal S4096x200 .f32) (tim : FVec Ideal S4096x1 .f32) (a5 : FVec Ideal S200x401 .f32)
    (a6 : FVec Ideal S200 .f32) (se : FVec Ideal S30000x200 .f32) (b : Fin 4096) (n : Fin 30000) :
    decode ent rel tim a5 a6 se (ix2 b n)
      = ∑ k : Fin 200, max ((∑ j : Fin 401, xcat ent rel tim b j * a5 (ix2 k j)) + a6 (ix1 k)) 0 * se (ix2 n k) := by
  unfold decode
  simp only [Host.dotGeneral]
  rw [dot_b_apply]
  refine Finset.sum_congr rfl fun k _ => ?_
  rw [transpose_ix2_apply, maximumf_apply, addf_apply, dot_a_apply, bias_apply]
  refine congrArg (· * se (ix2 n k)) ?_
  refine congrArg₂ max (congrArg (· + a6 (ix1 k)) (Finset.sum_congr rfl fun j _ => ?_)) ?_
  · rw [transpose_ix2_apply, concat_apply]
  · show Ideal.ofBits .f32 0x00000000#32 = 0
    exact Ideal.ofBits_zero_f32

end Cert.ReferenceIdeal.RefValue

end
-- ==== Proof.SumSplit.lean ====
/-
  A sum over the 401 columns of the decoder's weight matrix, split as the kernel splits it: the first 200 columns
  (the entity part), the next 200 (the relation part) and the last one (the time column). Only the associativity
  of addition on the extended reals is used, so no finiteness is needed.
-/
import Mathlib.Data.EReal.Basic
import Mathlib.Algebra.BigOperators.Fin

open scoped BigOperators

namespace Cert.Decoder

/-- `∑ j < 401, f j = (∑ j < 200, f j) + (∑ j < 200, f (200 + j)) + f 400` in any additive commutative monoid. -/
theorem sum_split_401 {M : Type*} [AddCommMonoid M] (f : Fin 401 → M) :
    ∑ j : Fin 401, f j
      = (∑ j : Fin 200, f ⟨j.val, by omega⟩) + (∑ j : Fin 200, f ⟨200 + j.val, by omega⟩) + f ⟨400, by omega⟩ := by
  rw [Fin.sum_univ_castSucc (n := 400)]
  have h := Fin.sum_univ_add (a := 200) (b := 200) (fun i : Fin (200 + 200) => f ⟨i.val, by omega⟩)
  have e : (∑ i : Fin 400, f i.castSucc) = ∑ i : Fin (200 + 200), f ⟨i.val, by omega⟩ := rfl
  rw [e, h]
  rfl

end Cert.Decoder
-- ==== Proof.Bridge.lean ====
/-
  The two decoders are one function. The reference multiplies the 401-wide row [tanh(ent), rel, tim] by the whole
  weight matrix, adds the bias and takes the maximum with zero; the kernel adds three partial products over the
  three column blocks of the weight matrix (columns 0..199, 200..399 and 400). Splitting the sum over the 401
  columns at 200 and 400 identifies the two rows; only associativity of addition on the extended reals is used.
  The final products with static_emb agree term by term, the kernel's padded rows never being read inside the array.
-/
import proofs.«158429_j18803366822339_2_alg».proof.Proof.KernelIndex
import proofs.«158429_j18803366822339_2_alg».proof.Proof.RefValue
import proofs.«158429_j18803366822339_2_alg».proof.Proof.SumSplit

noncomputable section
open scoped BigOperators
namespace Cert.Bridge
open Idealize.ShloMosaic Idealize.ShloMosaic.ValueIdx
open Cert.KernelIdeal.KValue (yRow outFn)
open Cert.ReferenceIdeal.RefValue (xcat decode_apply)
open Cert.ReferenceIdeal.RefRun (decode)

/-- The reference's decoder row entry is the kernel's, once the kernel's three weight blocks and bias row are read
    as the columns of the weight matrix and the bias vector. -/
theorem row_eq (ent rel : FVec Ideal Cert.ReferenceIdeal.S4096x200 .f32) (tim : FVec Ideal Cert.ReferenceIdeal.S4096x1 .f32)
    (a5 : FVec Ideal Cert.ReferenceIdeal.S200x401 .f32) (a6 : FVec Ideal Cert.ReferenceIdeal.S200 .f32)
    (we wr : Cert.KernelIdeal.S200x200.Idx → EReal) (wt db : Cert.KernelIdeal.S1x200.Idx → EReal)
    (hwe : ∀ j k : Fin 200, we (ix2 j k) = a5 (ix2 k (⟨j.val, by omega⟩ : Fin 401)))
    (hwr : ∀ j k : Fin 200, wr (ix2 j k) = a5 (ix2 k (⟨200 + j.val, by omega⟩ : Fin 401)))
    (hwt : ∀ k : Fin 200, wt (ix2 (0 : Fin 1) k) = a5 (ix2 k (⟨400, by omega⟩ : Fin 401)))
    (hdb : ∀ k : Fin 200, db (ix2 (0 : Fin 1) k) = a6 (ix1 k)) (b : Fin 4096) (k : Fin 200) :
    max ((∑ j : Fin 401, xcat ent rel tim b j * a5 (ix2 k j)) + a6 (ix1 k)) 0 = yRow ent rel tim we wr wt db b k := by
  unfold yRow
  rw [Cert.Decoder.sum_split_401 (fun j => xcat ent rel tim b j * a5 (ix2 k j))]
  refine congrArg (fun x : EReal => max x 0) ?_
  refine congrArg₂ (· + ·) (congrArg₂ (· + ·) (congrArg₂ (· + ·) ?_ ?_) ?_) (hdb k).symm
  · refine Finset.sum_congr rfl fun j _ => ?_
    rw [hwe]
    refine congrArg (· * _) ?_
    unfold xcat
    rw [dif_pos (show (⟨j.val, by omega⟩ : Fin 401).val < 200 from j.isLt)]
  · refine Finset.sum_congr rfl fun j _ => ?_
    rw [hwr]
    refine congrArg (· * _) ?_
    unfold xcat
    rw [dif_neg (show ¬(⟨200 + j.val, by omega⟩ : Fin 401).val < 200 from by show ¬200 + j.val < 200; omega),
      dif_pos (show (⟨200 + j.val, by omega⟩ : Fin 401).val < 400 from by show 200 + j.val < 400; omega)]
    refine congrArg rel (congrArg (fun q : Fin 200 => ix2 b q) (Fin.ext ?_))
    show 200 + j.val - 200 = j.val
    omega
  · rw [hwt]
    refine congrArg (· * _) ?_
    unfold xcat
    rw [dif_neg (show ¬(⟨400, by omega⟩ : Fin 401).val < 200 from by show ¬400 < 200; omega),
      dif_neg (show ¬(⟨400, by omega⟩ : Fin 401).val < 400 from by show ¬400 < 400; omega)]

/-- The reference's result is the kernel's result function. -/
theorem result_eq (ent rel : FVec Ideal Cert.ReferenceIdeal.S4096x200 .f32) (tim : FVec Ideal Cert.ReferenceIdeal.S4096x1 .f32)
    (a5 : FVec Ideal Cert.ReferenceIdeal.S200x401 .f32) (a6 : FVec Ideal Cert.ReferenceIdeal.S200 .f32)
    (se : FVec Ideal Cert.ReferenceIdeal.S30000x200 .f32)
    (we wr : Cert.KernelIdeal.S200x200.Idx → EReal) (wt db : Cert.KernelIdeal.S1x200.Idx → EReal)
    (sem : Cert.KernelIdeal.S30720x200.Idx → EReal)
    (hwe : ∀ j k : Fin 200, we (ix2 j k) = a5 (ix2 k (⟨j.val, by omega⟩ : Fin 401)))
    (hwr : ∀ j k : Fin 200, wr (ix2 j k) = a5 (ix2 k (⟨200 + j.val, by omega⟩ : Fin 401)))
    (hwt : ∀ k : Fin 200, wt (ix2 (0 : Fin 1) k) = a5 (ix2 k (⟨400, by omega⟩ : Fin 401)))
    (hdb : ∀ k : Fin 200, db (ix2 (0 : Fin 1) k) = a6 (ix1 k))
    (hsem : ∀ (n : Fin 30720) (k : Fin 200) (hn : n.val < 30000), sem (ix2 n k) = se (ix2 (⟨n.val, hn⟩ : Fin 30000) k)) :
    decode ent rel tim a5 a6 se = outFn ent rel tim we wr wt db sem := by
  funext i
  obtain ⟨b, n, rfl⟩ : ∃ (b : Fin 4096) (n : Fin 30000), i = ix2 b n := ⟨i 0, i 1, eq_ix2 i⟩
  rw [decode_apply]
  unfold outFn
  refine Finset.sum_congr rfl fun k _ => ?_
  refine congrArg₂ (· * ·) (row_eq ent rel tim a5 a6 we wr wt db hwe hwr hwt hdb b k) ?_
  exact (hsem ⟨n.val, by have := n.isLt; omega⟩ k n.isLt).symm

end Cert.Bridge
end
-- ==== Proof.lean ====
/-
  The certificate of the decoder kernel against its jnp reference.

  Both programs first compute, with the same host operations, the relation-aware entity table static_emb and the
  three gathered embeddings ent, rel, tim; they are carried as shared functions of the arguments and never opened.
  The reference then computes relu([tanh(ent), rel, tim] · dec_Wᵀ + dec_b) · static_embᵀ on the host. The kernel
  computes the same over a 4 × 16 grid: at the first column tile of each batch tile it stores the row block
  relu(tanh(ent) · WeT + rel · WrT + tim · wt + b) into a scratch it carries over the other fifteen column tiles,
  and at every point it multiplies the carried block with 1920 rows of the row-padded static_emb; the last column
  tile is cut at column 30000. Over the extended reals the changes of float format are the identity, the three
  partial products are the sum over the 401 columns of the weight matrix split at 200 and 400, and the padded rows
  are never read inside the result array; so the two results are equal entry by entry.

  The three frames: the two kernels' are the generated frame certificates; the reference's is its run with the
  result forgotten. The idealization rewrote nothing, so there is nothing to preserve.
-/
import proofs.«158429_j18803366822339_2_alg».proof.Defs
import proofs.«158429_j18803366822339_2_alg».proof.Proof.Gen.Kernel
import proofs.«158429_j18803366822339_2_alg».proof.Proof.Gen.Kernel.Skeleton
import proofs.«158429_j18803366822339_2_alg».proof.Proof.Gen.Kernel.Launch
import proofs.«158429_j18803366822339_2_alg».proof.Proof.Gen.Kernel.Points
import proofs.«158429_j18803366822339_2_alg».proof.Proof.Gen.Kernel.Frame
import proofs.«158429_j18803366822339_2_alg».proof.Proof.Gen.KernelIdeal
import proofs.«158429_j18803366822339_2_alg».proof.Proof.Gen.KernelIdeal.Skeleton
import proofs.«158429_j18803366822339_2_alg».proof.Proof.Gen.KernelIdeal.Launch
import proofs.«158429_j18803366822339_2_alg».proof.Proof.Gen.KernelIdeal.Points
import proofs.«158429_j18803366822339_2_alg».proof.Proof.Gen.KernelIdeal.Frame
import proofs.«158429_j18803366822339_2_alg».proof.Proof.Gen.KernelIdeal.Value
import proofs.«158429_j18803366822339_2_alg».proof.Proof.Gen.ReferenceIdeal
import proofs.«158429_j18803366822339_2_alg».proof.Proof.Gen.Pre_finite_inputs
import proofs.«158429_j18803366822339_2_alg».proof.Proof.KernelValue
import proofs.«158429_j18803366822339_2_alg».proof.Proof.KernelHost
import proofs.«158429_j18803366822339_2_alg».proof.Proof.RefRun
import proofs.«158429_j18803366822339_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- At the ideal instance the kernel's result array ends at the decoder function of the arrays the region finds, the
    reference's at its decoder of the shared host terms of arguments that agree; the eight window arrays are those
    host terms and the columns of the weight matrix, and the two decoders are one function. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨g0, g1, g2, g3, g4, g5, g6, g7, g8, g9, g10, g11⟩ := hagree c
  rw [g0, g1, g2, g3, g4, g5, g6, g7, g8, g9, g10, g11]
  unfold Cert.KernelIdeal.KValue.G
  beta_reduce
  rw [Cert.KernelIdeal.HostValue.V_ent m c, Cert.KernelIdeal.HostValue.V_rel m c, Cert.KernelIdeal.HostValue.V_tim m c]
  exact Cert.Bridge.result_eq _ _ _ _ _ _ _ _ _ _ _ (Cert.KernelIdeal.HostValue.V_WeT m c) (Cert.KernelIdeal.HostValue.V_WrT m c)
    (Cert.KernelIdeal.HostValue.V_wt m c) (Cert.KernelIdeal.HostValue.V_decb m c) (Cert.KernelIdeal.HostValue.V_sem m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
